-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000 : Shape := ⟨1, ![640000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel

variable [Facts]

def fn {F : FTy → Type} [FloatOps F] (main_arg0 : FVec F S100000x128 .f32) (main_arg1 : IVec S640000 32) (main_arg2 : IVec S640000 32) (main_arg3 : IVec S640000 32) (main_arg4 : IVec S640000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  main_v3
-- ==== Kernel.lean ====
abbrev S100000x128 : Shape := ⟨2, ![100000, 128]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S100000x256 : Shape := ⟨2, ![100000, 256]⟩
abbrev S2000x128 : Shape := ⟨2, ![2000, 128]⟩
abbrev S2000x256 : Shape := ⟨2, ![2000, 256]⟩
abbrev S640000x256 : Shape := ⟨2, ![640000, 256]⟩
abbrev S100000x512 : Shape := ⟨2, ![100000, 512]⟩
abbrev S2000x512 : Shape := ⟨2, ![2000, 512]⟩

abbrev nBuf : Space → Nat
  | .hbm => 107
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S640000, .i32⟩
  | .hbm, ⟨4, _⟩ => ⟨S640000, .i32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S_, .f32⟩
  | .hbm, ⟨15, _⟩ => ⟨S100000x128, .f32⟩
  | .hbm, ⟨16, _⟩ => ⟨S640000x1, .i32⟩
  | .hbm, ⟨17, _⟩ => ⟨S100000x128, .f32⟩
  | .hbm, ⟨18, _⟩ => ⟨S_, .f32⟩
  | .hbm, ⟨19, _⟩ => ⟨S640000, .f32⟩
  | .hbm, ⟨20, _⟩ => ⟨S_, .f32⟩
  | .hbm, ⟨21, _⟩ => ⟨S100000, .f32⟩
  | .hbm, ⟨22, _⟩ => ⟨S640000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S640000x128, .f32⟩
  | .hbm, ⟨39, _⟩ => ⟨S_, .f32⟩
  | .hbm, ⟨40, _⟩ => ⟨S100000x128, .f32⟩
  | .hbm, ⟨41, _⟩ => ⟨S640000x1, .i32⟩
  | .hbm, ⟨42, _⟩ => ⟨S100000x128, .f32⟩
  | .hbm, ⟨43, _⟩ => ⟨S_, .f32⟩
  | .hbm, ⟨44, _⟩ => ⟨S640000, .f32⟩
  | .hbm, ⟨45, _⟩ => ⟨S_, .f32⟩
  | .hbm, ⟨46, _⟩ => ⟨S100000, .f32⟩
  | .hbm, ⟨47, _⟩ => ⟨S640000x1, .i32⟩
  | .hbm, ⟨48, _⟩ => ⟨S100000, .f32⟩
  | .hbm, ⟨49, _⟩ => ⟨S_, .f32⟩
  | .hbm, ⟨50, _⟩ => ⟨S100000, .f32⟩
  | .hbm, ⟨51, _⟩ => ⟨S100000, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S100000x256, .f32⟩
  | .hbm, ⟨56, _⟩ => ⟨S_, .i32⟩
  | .hbm, ⟨57, _⟩ => ⟨S640000, .i32⟩
  | .hbm, ⟨58, _⟩ => ⟨S640000, .i1⟩
  | .hbm, ⟨59, _⟩ => ⟨S_, .i32⟩
  | .hbm, ⟨60, _⟩ => ⟨S640000, .i32⟩
  | .hbm, ⟨61, _⟩ => ⟨S640000, .i32⟩
  | .hbm, ⟨62, _⟩ => ⟨S640000, .i32⟩
  | .hbm, ⟨63, _⟩ => ⟨S640000x1, .i32⟩
  | .hbm, ⟨64, _⟩ => ⟨S640000x256, .f32⟩
  | .hbm, ⟨65, _⟩ => ⟨S_, .f32⟩
  | .hbm, ⟨66, _⟩ => ⟨S100000x256, .f32⟩
  | .hbm, ⟨67, _⟩ => ⟨S640000x1, .i32⟩
  | .hbm, ⟨68, _⟩ => ⟨S100000x256, .f32⟩
  | .hbm, ⟨69, _⟩ => ⟨S_, .f32⟩
  | .hbm, ⟨70, _⟩ => ⟨S640000, .f32⟩
  | .hbm, ⟨71, _⟩ => ⟨S_, .f32⟩
  | .hbm, ⟨72, _⟩ => ⟨S100000, .f32⟩
  | .hbm, ⟨73, _⟩ => ⟨S640000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S100000x1, .f32⟩
  | .hbm, ⟨79, _⟩ => ⟨S100000x256, .f32⟩
  | .hbm, ⟨80, _⟩ => ⟨S100000x256, .f32⟩
  | .hbm, ⟨81, _⟩ => ⟨S_, .i32⟩
  | .hbm, ⟨82, _⟩ => ⟨S640000, .i32⟩
  | .hbm, ⟨83, _⟩ => ⟨S640000, .i1⟩
  | .hbm, ⟨84, _⟩ => ⟨S_, .i32⟩
  | .hbm, ⟨85, _⟩ => ⟨S640000, .i32⟩
  | .hbm, ⟨86, _⟩ => ⟨S640000, .i32⟩
  | .hbm, ⟨87, _⟩ => ⟨S640000, .i32⟩
  | .hbm, ⟨88, _⟩ => ⟨S640000x1, .i32⟩
  | .hbm, ⟨89, _⟩ => ⟨S640000x256, .f32⟩
  | .hbm, ⟨90, _⟩ => ⟨S_, .f32⟩
  | .hbm, ⟨91, _⟩ => ⟨S100000x256, .f32⟩
  | .hbm, ⟨92, _⟩ => ⟨S640000x1, .i32⟩
  | .hbm, ⟨93, _⟩ => ⟨S100000x256, .f32⟩
  | .hbm, ⟨94, _⟩ => ⟨S_, .f32⟩
  | .hbm, ⟨95, _⟩ => ⟨S640000, .f32⟩
  | .hbm, ⟨96, _⟩ => ⟨S_, .f32⟩
  | .hbm, ⟨97, _⟩ => ⟨S100000, .f32⟩
  | .hbm, ⟨98, _⟩ => ⟨S640000x1, .i32⟩
  | .hbm, ⟨99, _⟩ => ⟨S100000, .f32⟩
  | .hbm, ⟨100, _⟩ => ⟨S_, .f32⟩
  | .hbm, ⟨101, _⟩ => ⟨S100000, .f32⟩
  | .hbm, ⟨102, _⟩ => ⟨S100000, .f32⟩
  | .hbm, ⟨103, _⟩ => ⟨S100000x1, .f32⟩
  | .hbm, ⟨104, _⟩ => ⟨S100000x256, .f32⟩
  | .hbm, ⟨105, _⟩ => ⟨S100000x256, .f32⟩
  | .hbm, ⟨106, _⟩ => ⟨S100000x512, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x512, .f32⟩
  | .local _ .vmem, ⟨15, _⟩ => ⟨S2000x512, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_10 : Ref sig .tc := ⟨.hbm, 56, rfl⟩
abbrev main_v39 : Ref sig .tc := ⟨.hbm, 57, rfl⟩
abbrev main_v40 : Ref sig .tc := ⟨.hbm, 58, rfl⟩
abbrev main_c_11 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_13 : Ref sig .tc := ⟨.hbm, 69, rfl⟩
abbrev main_v49 : Ref sig .tc := ⟨.hbm, 70, rfl⟩
abbrev main_cst_14 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_15 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_16 : Ref sig .tc := ⟨.hbm, 81, rfl⟩
abbrev main_v58 : Ref sig .tc := ⟨.hbm, 82, rfl⟩
abbrev main_v59 : Ref sig .tc := ⟨.hbm, 83, rfl⟩
abbrev main_c_17 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_18 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_19 : Ref sig .tc := ⟨.hbm, 94, rfl⟩
abbrev main_v68 : Ref sig .tc := ⟨.hbm, 95, rfl⟩
abbrev main_cst_20 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_21 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x256_S2000x128_0_0 : ∀ a, (![0, 0] : Fin 2 → Nat) a + S2000x128.size a ≤ S2000x256.size a
  inb_S2000x256_S2000x128_0_128 : ∀ a, (![0, 128] : Fin 2 → Nat) a + S2000x128.size a ≤ S2000x256.size a
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x512_S2000x256_0_0 : ∀ a, (![0, 0] : Fin 2 → Nat) a + S2000x256.size a ≤ S2000x512.size a
  inb_S2000x512_S2000x256_0_256 : ∀ a, (![0, 256] : Fin 2 → Nat) a + S2000x256.size a ≤ S2000x512.size a
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S100000x256.size a
  hwx0_3 : ∀ i : grid0.Coords, EltTy.bits .f32 = 32 ∨ (Rect.block (s := S100000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S100000x256.size a
  hwx1_2 : ∀ i : grid1.Coords, EltTy.bits .f32 = 32 ∨ (Rect.block (s := S100000x256) S2000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x512.size a ≤ S100000x512.size a
  hwx1_3 : ∀ i : grid1.Coords, EltTy.bits .f32 = 32 ∨ (Rect.block (s := S100000x512) S2000x512.size (cc1_transform_3 i) (hinb1_3 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v38) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v76) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v77) S2000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S100000x256 : Shape := ⟨2, ![100000, 256]⟩
abbrev S640000x256 : Shape := ⟨2, ![640000, 256]⟩
abbrev S100000x512 : Shape := ⟨2, ![100000, 512]⟩

abbrev nBuf : Space → Nat
  | .hbm => 143
  | .vmem => 0
  | .smem => 0
  | _ => 0

abbrev hbmTy0_0 (i : Nat) : BufTy := match i % 128 with
  | 0 => ⟨S100000x128, .f32⟩
  | 1 => ⟨S640000, .i32⟩
  | 2 => ⟨S640000, .i32⟩
  | 3 => ⟨S640000, .i32⟩
  | 4 => ⟨S640000, .i32⟩
  | 5 => ⟨S_, .i32⟩
  | 6 => ⟨S640000, .i32⟩
  | 7 => ⟨S640000, .i1⟩
  | 8 => ⟨S_, .i32⟩
  | 9 => ⟨S640000, .i32⟩
  | 10 => ⟨S640000, .i32⟩
  | 11 => ⟨S640000, .i32⟩
  | 12 => ⟨S640000x1, .i32⟩
  | 13 => ⟨S640000x128, .f32⟩
  | 14 => ⟨S_, .f32⟩
  | 15 => ⟨S100000x128, .f32⟩
  | 16 => ⟨S640000x1, .i32⟩
  | 17 => ⟨S100000x128, .f32⟩
  | 18 => ⟨S_, .f32⟩
  | 19 => ⟨S640000, .f32⟩
  | 20 => ⟨S_, .f32⟩
  | 21 => ⟨S100000, .f32⟩
  | 22 => ⟨S640000x1, .i32⟩
  | 23 => ⟨S100000, .f32⟩
  | 24 => ⟨S_, .f32⟩
  | 25 => ⟨S100000, .f32⟩
  | 26 => ⟨S100000, .f32⟩
  | 27 => ⟨S100000x1, .f32⟩
  | 28 => ⟨S100000x128, .f32⟩
  | 29 => ⟨S100000x128, .f32⟩
  | 30 => ⟨S100000x128, .f32⟩
  | 31 => ⟨S_, .f32⟩
  | 32 => ⟨S_, .f32⟩
  | 33 => ⟨S100000x128, .f32⟩
  | 34 => ⟨S100000x128, .i1⟩
  | 35 => ⟨S_, .f32⟩
  | 36 => ⟨S100000x128, .f32⟩
  | 37 => ⟨S100000x128, .f32⟩
  | 38 => ⟨S100000x128, .f32⟩
  | 39 => ⟨S_, .i32⟩
  | 40 => ⟨S640000, .i32⟩
  | 41 => ⟨S640000, .i1⟩
  | 42 => ⟨S_, .i32⟩
  | 43 => ⟨S640000, .i32⟩
  | 44 => ⟨S640000, .i32⟩
  | 45 => ⟨S640000, .i32⟩
  | 46 => ⟨S640000x1, .i32⟩
  | 47 => ⟨S640000x128, .f32⟩
  | 48 => ⟨S_, .f32⟩
  | 49 => ⟨S100000x128, .f32⟩
  | 50 => ⟨S640000x1, .i32⟩
  | 51 => ⟨S100000x128, .f32⟩
  | 52 => ⟨S_, .f32⟩
  | 53 => ⟨S640000, .f32⟩
  | 54 => ⟨S_, .f32⟩
  | 55 => ⟨S100000, .f32⟩
  | 56 => ⟨S640000x1, .i32⟩
  | 57 => ⟨S100000, .f32⟩
  | 58 => ⟨S_, .f32⟩
  | 59 => ⟨S100000, .f32⟩
  | 60 => ⟨S100000, .f32⟩
  | 61 => ⟨S100000x1, .f32⟩
  | 62 => ⟨S100000x128, .f32⟩
  | 63 => ⟨S100000x128, .f32⟩
  | 64 => ⟨S100000x128, .f32⟩
  | 65 => ⟨S_, .f32⟩
  | 66 => ⟨S_, .f32⟩
  | 67 => ⟨S100000x128, .f32⟩
  | 68 => ⟨S100000x128, .i1⟩
  | 69 => ⟨S_, .f32⟩
  | 70 => ⟨S100000x128, .f32⟩
  | 71 => ⟨S100000x128, .f32⟩
  | 72 => ⟨S100000x128, .f32⟩
  | 73 => ⟨S100000x256, .f32⟩
  | 74 => ⟨S_, .i32⟩
  | 75 => ⟨S640000, .i32⟩
  | 76 => ⟨S640000, .i1⟩
  | 77 => ⟨S_, .i32⟩
  | 78 => ⟨S640000, .i32⟩
  | 79 => ⟨S640000, .i32⟩
  | 80 => ⟨S640000, .i32⟩
  | 81 => ⟨S640000x1, .i32⟩
  | 82 => ⟨S640000x256, .f32⟩
  | 83 => ⟨S_, .f32⟩
  | 84 => ⟨S100000x256, .f32⟩
  | 85 => ⟨S640000x1, .i32⟩
  | 86 => ⟨S100000x256, .f32⟩
  | 87 => ⟨S_, .f32⟩
  | 88 => ⟨S640000, .f32⟩
  | 89 => ⟨S_, .f32⟩
  | 90 => ⟨S100000, .f32⟩
  | 91 => ⟨S640000x1, .i32⟩
  | 92 => ⟨S100000, .f32⟩
  | 93 => ⟨S_, .f32⟩
  | 94 => ⟨S100000, .f32⟩
  | 95 => ⟨S100000, .f32⟩
  | 96 => ⟨S100000x1, .f32⟩
  | 97 => ⟨S100000x256, .f32⟩
  | 98 => ⟨S100000x256, .f32⟩
  | 99 => ⟨S100000x256, .f32⟩
  | 100 => ⟨S_, .f32⟩
  | 101 => ⟨S_, .f32⟩
  | 102 => ⟨S100000x256, .f32⟩
  | 103 => ⟨S100000x256, .i1⟩
  | 104 => ⟨S_, .f32⟩
  | 105 => ⟨S100000x256, .f32⟩
  | 106 => ⟨S100000x256, .f32⟩
  | 107 => ⟨S100000x256, .f32⟩
  | 108 => ⟨S_, .i32⟩
  | 109 => ⟨S640000, .i32⟩
  | 110 => ⟨S640000, .i1⟩
  | 111 => ⟨S_, .i32⟩
  | 112 => ⟨S640000, .i32⟩
  | 113 => ⟨S640000, .i32⟩
  | 114 => ⟨S640000, .i32⟩
  | 115 => ⟨S640000x1, .i32⟩
  | 116 => ⟨S640000x256, .f32⟩
  | 117 => ⟨S_, .f32⟩
  | 118 => ⟨S100000x256, .f32⟩
  | 119 => ⟨S640000x1, .i32⟩
  | 120 => ⟨S100000x256, .f32⟩
  | 121 => ⟨S_, .f32⟩
  | 122 => ⟨S640000, .f32⟩
  | 123 => ⟨S_, .f32⟩
  | 124 => ⟨S100000, .f32⟩
  | 125 => ⟨S640000x1, .i32⟩
  | 126 => ⟨S100000, .f32⟩
  | 127 => ⟨S_, .f32⟩
  | _ => ⟨S100000x128, .f32⟩

abbrev hbmTy0_1 (i : Nat) : BufTy := match i % 128 with
  | 0 => ⟨S100000, .f32⟩
  | 1 => ⟨S100000, .f32⟩
  | 2 => ⟨S100000x1, .f32⟩
  | 3 => ⟨S100000x256, .f32⟩
  | 4 => ⟨S100000x256, .f32⟩
  | 5 => ⟨S100000x256, .f32⟩
  | 6 => ⟨S_, .f32⟩
  | 7 => ⟨S_, .f32⟩
  | 8 => ⟨S100000x256, .f32⟩
  | 9 => ⟨S100000x256, .i1⟩
  | 10 => ⟨S_, .f32⟩
  | 11 => ⟨S100000x256, .f32⟩
  | 12 => ⟨S100000x256, .f32⟩
  | 13 => ⟨S100000x256, .f32⟩
  | 14 => ⟨S100000x512, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_8 : Ref sig .tc := ⟨.hbm, 52, rfl⟩
abbrev main_v31 : Ref sig .tc := ⟨.hbm, 53, rfl⟩
abbrev main_cst_9 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_10 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_11 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v41 : Ref sig .tc := ⟨.hbm, 72, rfl⟩
abbrev main_v42 : Ref sig .tc := ⟨.hbm, 73, rfl⟩
abbrev main_c_12 : Ref sig .tc := ⟨.hbm, 74, rfl⟩
abbrev main_v43 : Ref sig .tc := ⟨.hbm, 75, rfl⟩
abbrev main_v44 : Ref sig .tc := ⟨.hbm, 76, rfl⟩
abbrev main_c_13 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_14 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_15 : Ref sig .tc := ⟨.hbm, 87, rfl⟩
abbrev main_v53 : Ref sig .tc := ⟨.hbm, 88, rfl⟩
abbrev main_cst_16 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_17 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_18 : Ref sig .tc := ⟨.hbm, 100, rfl⟩
abbrev main_call2_cst : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_v63 : Ref sig .tc := ⟨.hbm, 107, rfl⟩
abbrev main_c_19 : Ref sig .tc := ⟨.hbm, 108, rfl⟩
abbrev main_v64 : Ref sig .tc := ⟨.hbm, 109, rfl⟩
abbrev main_v65 : Ref sig .tc := ⟨.hbm, 110, rfl⟩
abbrev main_c_20 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_cst_21 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_22 : Ref sig .tc := ⟨.hbm, 121, rfl⟩
abbrev main_v74 : Ref sig .tc := ⟨.hbm, 122, rfl⟩
abbrev main_cst_23 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_cst_24 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_cst_25 : Ref sig .tc := ⟨.hbm, 134, rfl⟩
abbrev main_call3_cst : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_v84 : Ref sig .tc := ⟨.hbm, 141, rfl⟩
abbrev main_v85 : Ref sig .tc := ⟨.hbm, 142, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  concatenates_S100000x256_S100000x256_S100000x512_d1 : Shape.Concatenates [S100000x256, S100000x256] S100000x512 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf

class Facts : Prop extends Facts₀ where

variable [Facts]
-- ==== Proof.RefRun.lean ====
/-
  The run of the reference program, read back. The reference is a two-layer mean-aggregation network over two
  edge sets on 100000 nodes: for a feature table `x` and an edge set (`src`, `dst`) of 640000 edges, the mean of the
  in-neighbours' rows is the scatter-add of the gathered source rows at the destinations, divided row by row by the
  in-degree (a scatter-add of ones) floored at one; a negative source index is first moved up by the row count
  (the select of `src + 100000` where `src < 0`). A layer adds that mean to `x`, applies the leaky rectifier
  `s ↦ if s ≥ 0 then s else 0.01 · s` (a comparison, a product with the broadcast slope, a select), once per edge
  set, and concatenates the two results along the feature axis: 128 columns become 256, and the second layer, the
  same at 256 columns, makes 512.

  @main is a straight line of 138 host operations once its four calls of the rectifier (each of which calls the
  select helper) are unfolded at their call sites: `main c = seq ops`. So every weakly fair execution terminates
  with every buffer at the operations' fold over the launch contents (`run_main`), and that fold is `refOut` of the
  five arguments at the result buffer (`out_eq`) and leaves the arguments as they were (`arg0_eq` … `arg4_eq`).
-/
import proofs.«168979_j72112500899859_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The mean of the in-neighbours' rows at 128 columns, as the program spells it: the source index moved up by the row
    count where it is negative, the source rows gathered, scatter-added into zeros at the destinations; the in-degree
    by a scatter-add of ones, floored at one, broadcast along the columns; the quotient. -/
def mean128 (x : FVec F S100000x128 .f32) (src dst : IVec S640000 32) : FVec F S100000x128 .f32 :=
    Host.divf (Host.scatterAdd scatter_S100000x128_S640000x1_S640000x128_1_0_0_1 (broadcastInDim S100000x128 ![] bcast_S_S100000x128 (constant S_ .f32 0x00000000#32)) (broadcastInDim S640000x1 ![0] bcast_S640000_S640000x1_0 dst) (Host.gather gather_S100000x128_S640000x1_S640000x128_1_0_n_n_0_1_1128 x (broadcastInDim S640000x1 ![0] bcast_S640000_S640000x1_0 (select (cmpi .slt src (broadcastInDim S640000 ![] bcast_S_S640000 (constantI S_ 32 0#32))) (addi src (broadcastInDim S640000 ![] bcast_S_S640000 (constantI S_ 32 100000#32))) src))))
      (broadcastInDim S100000x128 ![0, 1] bcast_S100000x1_S100000x128_0_1 (broadcastInDim S100000x1 ![0] bcast_S100000_S100000x1_0 (maximumf (Host.scatterAdd scatter_S100000_S640000x1_S640000_n_0_0_1 (broadcastInDim S100000 ![] bcast_S_S100000 (constant S_ .f32 0x00000000#32)) (broadcastInDim S640000x1 ![0] bcast_S640000_S640000x1_0 dst) (broadcastInDim S640000 ![] bcast_S_S640000 (constant S_ .f32 0x3F800000#32))) (broadcastInDim S100000 ![] bcast_S_S100000 (constant S_ .f32 0x3F800000#32)))))

/-- The same at 256 columns. -/
def mean256 (x : FVec F S100000x256 .f32) (src dst : IVec S640000 32) : FVec F S100000x256 .f32 :=
    Host.divf (Host.scatterAdd scatter_S100000x256_S640000x1_S640000x256_1_0_0_1 (broadcastInDim S100000x256 ![] bcast_S_S100000x256 (constant S_ .f32 0x00000000#32)) (broadcastInDim S640000x1 ![0] bcast_S640000_S640000x1_0 dst) (Host.gather gather_S100000x256_S640000x1_S640000x256_1_0_n_n_0_1_1256 x (broadcastInDim S640000x1 ![0] bcast_S640000_S640000x1_0 (select (cmpi .slt src (broadcastInDim S640000 ![] bcast_S_S640000 (constantI S_ 32 0#32))) (addi src (broadcastInDim S640000 ![] bcast_S_S640000 (constantI S_ 32 100000#32))) src))))
      (broadcastInDim S100000x256 ![0, 1] bcast_S100000x1_S100000x256_0_1 (broadcastInDim S100000x1 ![0] bcast_S100000_S100000x1_0 (maximumf (Host.scatterAdd scatter_S100000_S640000x1_S640000_n_0_0_1 (broadcastInDim S100000 ![] bcast_S_S100000 (constant S_ .f32 0x00000000#32)) (broadcastInDim S640000x1 ![0] bcast_S640000_S640000x1_0 dst) (broadcastInDim S640000 ![] bcast_S_S640000 (constant S_ .f32 0x3F800000#32))) (broadcastInDim S100000 ![] bcast_S_S100000 (constant S_ .f32 0x3F800000#32)))))

/-- The leaky rectifier at 128 columns: `s` where `s ≥ 0`, the slope's product `0.01 · s` elsewhere (the slope
    converted to its own type, the identity, and broadcast). -/
def leaky128 (s : FVec F S100000x128 .f32) : FVec F S100000x128 .f32 :=
    select (cmpf .oge s (broadcastInDim S100000x128 ![] bcast_S_S100000x128 (constant S_ .f32 0x00000000#32))) s (mulf (broadcastInDim S100000x128 ![] bcast_S_S100000x128 (id (constant S_ .f32 0x3C23D70A#32))) s)

/-- The same at 256 columns. -/
def leaky256 (s : FVec F S100000x256 .f32) : FVec F S100000x256 .f32 :=
    select (cmpf .oge s (broadcastInDim S100000x256 ![] bcast_S_S100000x256 (constant S_ .f32 0x00000000#32))) s (mulf (broadcastInDim S100000x256 ![] bcast_S_S100000x256 (id (constant S_ .f32 0x3C23D70A#32))) s)

/-- One layer at 128 columns: per edge set the rectified sum of `x` and its neighbour mean, the two side by side. -/
def layer128 (x : FVec F S100000x128 .f32) (s1 d1 s2 d2 : IVec S640000 32) : FVec F S100000x256 .f32 :=
  concatenate S100000x256 1 [⟨S100000x128, leaky128 (addf x (mean128 x s1 d1))⟩, ⟨S100000x128, leaky128 (addf x (mean128 x s2 d2))⟩] concatenates_S100000x128_S100000x128_S100000x256_d1

/-- One layer at 256 columns. -/
def layer256 (h : FVec F S100000x256 .f32) (s1 d1 s2 d2 : IVec S640000 32) : FVec F S100000x512 .f32 :=
  concatenate S100000x512 1 [⟨S100000x256, leaky256 (addf h (mean256 h s1 d1))⟩, ⟨S100000x256, leaky256 (addf h (mean256 h s2 d2))⟩] concatenates_S100000x256_S100000x256_S100000x512_d1

/-- What the reference computes: the two layers, over the same two edge sets. -/
def refOut (x : FVec F S100000x128 .f32) (s1 d1 s2 d2 : IVec S640000 32) : FVec F S100000x512 .f32 :=
  layer256 (layer128 x s1 d1 s2 d2) s1 d1 s2 d2

/-- @main's 138 operations, in order, the calls unfolded: each layer is two branches — the index fix-up, the gather,
    the scatter-add into zeros, the degree and its floor, the two broadcasts, the quotient, the sum with the input,
    the slope, and the rectifier's seven (the zero, its broadcast, the comparison, the slope converted and broadcast,
    the product, the select, into the call's own buffers) — and their concatenation. -/
abbrev ops : List (HloOp τ sig (Elt F)) :=
  [ nullary main_c (constantI S_ 32 0#32),
    unary main_c main_v0 (broadcastInDim S640000 ![] bcast_S_S640000 : (⟨S_, .i32⟩ : BufTy).Contents (Elt F) → (⟨S640000, .i32⟩ : BufTy).Contents (Elt F)),
    binary main_arg1 main_v0 main_v1 (cmpi .slt : (⟨S640000, .i32⟩ : BufTy).Contents (Elt F) → (⟨S640000, .i32⟩ : BufTy).Contents (Elt F) → (⟨S640000, .i1⟩ : BufTy).Contents (Elt F)),
    nullary main_c_0 (constantI S_ 32 100000#32),
    unary main_c_0 main_v2 (broadcastInDim S640000 ![] bcast_S_S640000 : (⟨S_, .i32⟩ : BufTy).Contents (Elt F) → (⟨S640000, .i32⟩ : BufTy).Contents (Elt F)),
    binary main_arg1 main_v2 main_v3 (addi : (⟨S640000, .i32⟩ : BufTy).Contents (Elt F) → (⟨S640000, .i32⟩ : BufTy).Contents (Elt F) → (⟨S640000, .i32⟩ : BufTy).Contents (Elt F)),
    ternary main_v1 main_v3 main_arg1 main_v4 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v4 main_v5 (broadcastInDim S640000x1 ![0] bcast_S640000_S640000x1_0 : (⟨S640000, .i32⟩ : BufTy).Contents (Elt F) → (⟨S640000x1, .i32⟩ : BufTy).Contents (Elt F)),
    binary main_arg0 main_v5 main_v6 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    nullary main_cst (constant S_ .f32 0x00000000#32),
    unary main_cst main_v7 (broadcastInDim S100000x128 ![] bcast_S_S100000x128 : (⟨S_, .f32⟩ : BufTy).Contents (Elt F) → (⟨S100000x128, .f32⟩ : BufTy).Contents (Elt F)),
    unary main_arg2 main_v8 (broadcastInDim S640000x1 ![0] bcast_S640000_S640000x1_0 : (⟨S640000, .i32⟩ : BufTy).Contents (Elt F) → (⟨S640000x1, .i32⟩ : BufTy).Contents (Elt F)),
    ternary main_v7 main_v8 main_v6 main_v9 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    nullary main_cst_1 (constant S_ .f32 0x3F800000#32),
    unary main_cst_1 main_v10 (broadcastInDim S640000 ![] bcast_S_S640000 : (⟨S_, .f32⟩ : BufTy).Contents (Elt F) → (⟨S640000, .f32⟩ : BufTy).Contents (Elt F)),
    nullary main_cst_2 (constant S_ .f32 0x00000000#32),
    unary main_cst_2 main_v11 (broadcastInDim S100000 ![] bcast_S_S100000 : (⟨S_, .f32⟩ : BufTy).Contents (Elt F) → (⟨S100000, .f32⟩ : BufTy).Contents (Elt F)),
    unary main_arg2 main_v12 (broadcastInDim S640000x1 ![0] bcast_S640000_S640000x1_0 : (⟨S640000, .i32⟩ : BufTy).Contents (Elt F) → (⟨S640000x1, .i32⟩ : BufTy).Contents (Elt F)),
    ternary main_v11 main_v12 main_v10 main_v13 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_3 (constant S_ .f32 0x3F800000#32),
    unary main_cst_3 main_v14 (broadcastInDim S100000 ![] bcast_S_S100000 : (⟨S_, .f32⟩ : BufTy).Contents (Elt F) → (⟨S100000, .f32⟩ : BufTy).Contents (Elt F)),
    binary main_v13 main_v14 main_v15 (maximumf : (⟨S100000, .f32⟩ : BufTy).Contents (Elt F) → (⟨S100000, .f32⟩ : BufTy).Contents (Elt F) → (⟨S100000, .f32⟩ : BufTy).Contents (Elt F)),
    unary main_v15 main_v16 (broadcastInDim S100000x1 ![0] bcast_S100000_S100000x1_0 : (⟨S100000, .f32⟩ : BufTy).Contents (Elt F) → (⟨S100000x1, .f32⟩ : BufTy).Contents (Elt F)),
    unary main_v16 main_v17 (broadcastInDim S100000x128 ![0, 1] bcast_S100000x1_S100000x128_0_1 : (⟨S100000x1, .f32⟩ : BufTy).Contents (Elt F) → (⟨S100000x128, .f32⟩ : BufTy).Contents (Elt F)),
    binary main_v9 main_v17 main_v18 (Host.divf : (⟨S100000x128, .f32⟩ : BufTy).Contents (Elt F) → (⟨S100000x128, .f32⟩ : BufTy).Contents (Elt F) → (⟨S100000x128, .f32⟩ : BufTy).Contents (Elt F)),
    binary main_arg0 main_v18 main_v19 (addf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3C23D70A#32),
    TRef.nullary main_call0.cst (constant S_ .f32 0x00000000#32),
    TRef.unary main_call0.cst main_call0.v0 (broadcastInDim S100000x128 ![] bcast_S_S100000x128),
    TRef.binary (.of main_v19 : TRef sig ⟨S100000x128, .f32⟩) main_call0.v0 main_call0.v1 (cmpf .oge),
    TRef.unary (.of main_cst_4 : TRef sig ⟨S_, .f32⟩) main_call0.v2 id,
    TRef.unary main_call0.v2 main_call0.v3 (broadcastInDim S100000x128 ![] bcast_S_S100000x128),
    TRef.binary main_call0.v3 (.of main_v19 : TRef sig ⟨S100000x128, .f32⟩) main_call0.v4 mulf,
    TRef.ternary main_call0.v1 (.of main_v19 : TRef sig ⟨S100000x128, .f32⟩) main_call0.v4 main_call0.call0.v0 select,
    nullary main_c_5 (constantI S_ 32 0#32),
    unary main_c_5 main_v21 (broadcastInDim S640000 ![] bcast_S_S640000 : (⟨S_, .i32⟩ : BufTy).Contents (Elt F) → (⟨S640000, .i32⟩ : BufTy).Contents (Elt F)),
    binary main_arg3 main_v21 main_v22 (cmpi .slt : (⟨S640000, .i32⟩ : BufTy).Contents (Elt F) → (⟨S640000, .i32⟩ : BufTy).Contents (Elt F) → (⟨S640000, .i1⟩ : BufTy).Contents (Elt F)),
    nullary main_c_6 (constantI S_ 32 100000#32),
    unary main_c_6 main_v23 (broadcastInDim S640000 ![] bcast_S_S640000 : (⟨S_, .i32⟩ : BufTy).Contents (Elt F) → (⟨S640000, .i32⟩ : BufTy).Contents (Elt F)),
    binary main_arg3 main_v23 main_v24 (addi : (⟨S640000, .i32⟩ : BufTy).Contents (Elt F) → (⟨S640000, .i32⟩ : BufTy).Contents (Elt F) → (⟨S640000, .i32⟩ : BufTy).Contents (Elt F)),
    ternary main_v22 main_v24 main_arg3 main_v25 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v25 main_v26 (broadcastInDim S640000x1 ![0] bcast_S640000_S640000x1_0 : (⟨S640000, .i32⟩ : BufTy).Contents (Elt F) → (⟨S640000x1, .i32⟩ : BufTy).Contents (Elt F)),
    binary main_arg0 main_v26 main_v27 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    nullary main_cst_7 (constant S_ .f32 0x00000000#32),
    unary main_cst_7 main_v28 (broadcastInDim S100000x128 ![] bcast_S_S100000x128 : (⟨S_, .f32⟩ : BufTy).Contents (Elt F) → (⟨S100000x128, .f32⟩ : BufTy).Contents (Elt F)),
    unary main_arg4 main_v29 (broadcastInDim S640000x1 ![0] bcast_S640000_S640000x1_0 : (⟨S640000, .i32⟩ : BufTy).Contents (Elt F) → (⟨S640000x1, .i32⟩ : BufTy).Contents (Elt F)),
    ternary main_v28 main_v29 main_v27 main_v30 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    nullary main_cst_8 (constant S_ .f32 0x3F800000#32),
    unary main_cst_8 main_v31 (broadcastInDim S640000 ![] bcast_S_S640000 : (⟨S_, .f32⟩ : BufTy).Contents (Elt F) → (⟨S640000, .f32⟩ : BufTy).Contents (Elt F)),
    nullary main_cst_9 (constant S_ .f32 0x00000000#32),
    unary main_cst_9 main_v32 (broadcastInDim S100000 ![] bcast_S_S100000 : (⟨S_, .f32⟩ : BufTy).Contents (Elt F) → (⟨S100000, .f32⟩ : BufTy).Contents (Elt F)),
    unary main_arg4 main_v33 (broadcastInDim S640000x1 ![0] bcast_S640000_S640000x1_0 : (⟨S640000, .i32⟩ : BufTy).Contents (Elt F) → (⟨S640000x1, .i32⟩ : BufTy).Contents (Elt F)),
    ternary main_v32 main_v33 main_v31 main_v34 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_10 (constant S_ .f32 0x3F800000#32),
    unary main_cst_10 main_v35 (broadcastInDim S100000 ![] bcast_S_S100000 : (⟨S_, .f32⟩ : BufTy).Contents (Elt F) → (⟨S100000, .f32⟩ : BufTy).Contents (Elt F)),
    binary main_v34 main_v35 main_v36 (maximumf : (⟨S100000, .f32⟩ : BufTy).Contents (Elt F) → (⟨S100000, .f32⟩ : BufTy).Contents (Elt F) → (⟨S100000, .f32⟩ : BufTy).Contents (Elt F)),
    unary main_v36 main_v37 (broadcastInDim S100000x1 ![0] bcast_S100000_S100000x1_0 : (⟨S100000, .f32⟩ : BufTy).Contents (Elt F) → (⟨S100000x1, .f32⟩ : BufTy).Contents (Elt F)),
    unary main_v37 main_v38 (broadcastInDim S100000x128 ![0, 1] bcast_S100000x1_S100000x128_0_1 : (⟨S100000x1, .f32⟩ : BufTy).Contents (Elt F) → (⟨S100000x128, .f32⟩ : BufTy).Contents (Elt F)),
    binary main_v30 main_v38 main_v39 (Host.divf : (⟨S100000x128, .f32⟩ : BufTy).Contents (Elt F) → (⟨S100000x128, .f32⟩ : BufTy).Contents (Elt F) → (⟨S100000x128, .f32⟩ : BufTy).Contents (Elt F)),
    binary main_arg0 main_v39 main_v40 (addf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3C23D70A#32),
    TRef.nullary main_call1.cst (constant S_ .f32 0x00000000#32),
    TRef.unary main_call1.cst main_call1.v0 (broadcastInDim S100000x128 ![] bcast_S_S100000x128),
    TRef.binary (.of main_v40 : TRef sig ⟨S100000x128, .f32⟩) main_call1.v0 main_call1.v1 (cmpf .oge),
    TRef.unary (.of main_cst_11 : TRef sig ⟨S_, .f32⟩) main_call1.v2 id,
    TRef.unary main_call1.v2 main_call1.v3 (broadcastInDim S100000x128 ![] bcast_S_S100000x128),
    TRef.binary main_call1.v3 (.of main_v40 : TRef sig ⟨S100000x128, .f32⟩) main_call1.v4 mulf,
    TRef.ternary main_call1.v1 (.of main_v40 : TRef sig ⟨S100000x128, .f32⟩) main_call1.v4 main_call1.call0.v0 select,
    binary main_v20 main_v41 main_v42 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    nullary main_c_12 (constantI S_ 32 0#32),
    unary main_c_12 main_v43 (broadcastInDim S640000 ![] bcast_S_S640000 : (⟨S_, .i32⟩ : BufTy).Contents (Elt F) → (⟨S640000, .i32⟩ : BufTy).Contents (Elt F)),
    binary main_arg1 main_v43 main_v44 (cmpi .slt : (⟨S640000, .i32⟩ : BufTy).Contents (Elt F) → (⟨S640000, .i32⟩ : BufTy).Contents (Elt F) → (⟨S640000, .i1⟩ : BufTy).Contents (Elt F)),
    nullary main_c_13 (constantI S_ 32 100000#32),
    unary main_c_13 main_v45 (broadcastInDim S640000 ![] bcast_S_S640000 : (⟨S_, .i32⟩ : BufTy).Contents (Elt F) → (⟨S640000, .i32⟩ : BufTy).Contents (Elt F)),
    binary main_arg1 main_v45 main_v46 (addi : (⟨S640000, .i32⟩ : BufTy).Contents (Elt F) → (⟨S640000, .i32⟩ : BufTy).Contents (Elt F) → (⟨S640000, .i32⟩ : BufTy).Contents (Elt F)),
    ternary main_v44 main_v46 main_arg1 main_v47 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v47 main_v48 (broadcastInDim S640000x1 ![0] bcast_S640000_S640000x1_0 : (⟨S640000, .i32⟩ : BufTy).Contents (Elt F) → (⟨S640000x1, .i32⟩ : BufTy).Contents (Elt F)),
    binary main_v42 main_v48 main_v49 ((fun x i => Host.gather gather_S100000x256_S640000x1_S640000x256_1_0_n_n_0_1_1256 x i) : (⟨S100000x256, .f32⟩ : BufTy).Contents (Elt F) → (⟨S640000x1, .i32⟩ : BufTy).Contents (Elt F) → (⟨S640000x256, .f32⟩ : BufTy).Contents (Elt F)),
    nullary main_cst_14 (constant S_ .f32 0x00000000#32),
    unary main_cst_14 main_v50 (broadcastInDim S100000x256 ![] bcast_S_S100000x256 : (⟨S_, .f32⟩ : BufTy).Contents (Elt F) → (⟨S100000x256, .f32⟩ : BufTy).Contents (Elt F)),
    unary main_arg2 main_v51 (broadcastInDim S640000x1 ![0] bcast_S640000_S640000x1_0 : (⟨S640000, .i32⟩ : BufTy).Contents (Elt F) → (⟨S640000x1, .i32⟩ : BufTy).Contents (Elt F)),
    ternary main_v50 main_v51 main_v49 main_v52 ((fun x i u => Host.scatterAdd scatter_S100000x256_S640000x1_S640000x256_1_0_0_1 x i u) : (⟨S100000x256, .f32⟩ : BufTy).Contents (Elt F) → (⟨S640000x1, .i32⟩ : BufTy).Contents (Elt F) → (⟨S640000x256, .f32⟩ : BufTy).Contents (Elt F) → (⟨S100000x256, .f32⟩ : BufTy).Contents (Elt F)),
    nullary main_cst_15 (constant S_ .f32 0x3F800000#32),
    unary main_cst_15 main_v53 (broadcastInDim S640000 ![] bcast_S_S640000 : (⟨S_, .f32⟩ : BufTy).Contents (Elt F) → (⟨S640000, .f32⟩ : BufTy).Contents (Elt F)),
    nullary main_cst_16 (constant S_ .f32 0x00000000#32),
    unary main_cst_16 main_v54 (broadcastInDim S100000 ![] bcast_S_S100000 : (⟨S_, .f32⟩ : BufTy).Contents (Elt F) → (⟨S100000, .f32⟩ : BufTy).Contents (Elt F)),
    unary main_arg2 main_v55 (broadcastInDim S640000x1 ![0] bcast_S640000_S640000x1_0 : (⟨S640000, .i32⟩ : BufTy).Contents (Elt F) → (⟨S640000x1, .i32⟩ : BufTy).Contents (Elt F)),
    ternary main_v54 main_v55 main_v53 main_v56 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_17 (constant S_ .f32 0x3F800000#32),
    unary main_cst_17 main_v57 (broadcastInDim S100000 ![] bcast_S_S100000 : (⟨S_, .f32⟩ : BufTy).Contents (Elt F) → (⟨S100000, .f32⟩ : BufTy).Contents (Elt F)),
    binary main_v56 main_v57 main_v58 (maximumf : (⟨S100000, .f32⟩ : BufTy).Contents (Elt F) → (⟨S100000, .f32⟩ : BufTy).Contents (Elt F) → (⟨S100000, .f32⟩ : BufTy).Contents (Elt F)),
    unary main_v58 main_v59 (broadcastInDim S100000x1 ![0] bcast_S100000_S100000x1_0 : (⟨S100000, .f32⟩ : BufTy).Contents (Elt F) → (⟨S100000x1, .f32⟩ : BufTy).Contents (Elt F)),
    unary main_v59 main_v60 (broadcastInDim S100000x256 ![0, 1] bcast_S100000x1_S100000x256_0_1 : (⟨S100000x1, .f32⟩ : BufTy).Contents (Elt F) → (⟨S100000x256, .f32⟩ : BufTy).Contents (Elt F)),
    binary main_v52 main_v60 main_v61 (Host.divf : (⟨S100000x256, .f32⟩ : BufTy).Contents (Elt F) → (⟨S100000x256, .f32⟩ : BufTy).Contents (Elt F) → (⟨S100000x256, .f32⟩ : BufTy).Contents (Elt F)),
    binary main_v42 main_v61 main_v62 (addf : (⟨S100000x256, .f32⟩ : BufTy).Contents (Elt F) → (⟨S100000x256, .f32⟩ : BufTy).Contents (Elt F) → (⟨S100000x256, .f32⟩ : BufTy).Contents (Elt F)),
    nullary main_cst_18 (constant S_ .f32 0x3C23D70A#32),
    TRef.nullary main_call2.cst (constant S_ .f32 0x00000000#32),
    TRef.unary main_call2.cst main_call2.v0 (broadcastInDim S100000x256 ![] bcast_S_S100000x256),
    TRef.binary (.of main_v62 : TRef sig ⟨S100000x256, .f32⟩) main_call2.v0 main_call2.v1 (cmpf .oge),
    TRef.unary (.of main_cst_18 : TRef sig ⟨S_, .f32⟩) main_call2.v2 id,
    TRef.unary main_call2.v2 main_call2.v3 (broadcastInDim S100000x256 ![] bcast_S_S100000x256),
    TRef.binary main_call2.v3 (.of main_v62 : TRef sig ⟨S100000x256, .f32⟩) main_call2.v4 mulf,
    TRef.ternary main_call2.v1 (.of main_v62 : TRef sig ⟨S100000x256, .f32⟩) main_call2.v4 main_call2.call0.v0 select,
    nullary main_c_19 (constantI S_ 32 0#32),
    unary main_c_19 main_v64 (broadcastInDim S640000 ![] bcast_S_S640000 : (⟨S_, .i32⟩ : BufTy).Contents (Elt F) → (⟨S640000, .i32⟩ : BufTy).Contents (Elt F)),
    binary main_arg3 main_v64 main_v65 (cmpi .slt : (⟨S640000, .i32⟩ : BufTy).Contents (Elt F) → (⟨S640000, .i32⟩ : BufTy).Contents (Elt F) → (⟨S640000, .i1⟩ : BufTy).Contents (Elt F)),
    nullary main_c_20 (constantI S_ 32 100000#32),
    unary main_c_20 main_v66 (broadcastInDim S640000 ![] bcast_S_S640000 : (⟨S_, .i32⟩ : BufTy).Contents (Elt F) → (⟨S640000, .i32⟩ : BufTy).Contents (Elt F)),
    binary main_arg3 main_v66 main_v67 (addi : (⟨S640000, .i32⟩ : BufTy).Contents (Elt F) → (⟨S640000, .i32⟩ : BufTy).Contents (Elt F) → (⟨S640000, .i32⟩ : BufTy).Contents (Elt F)),
    ternary main_v65 main_v67 main_arg3 main_v68 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v68 main_v69 (broadcastInDim S640000x1 ![0] bcast_S640000_S640000x1_0 : (⟨S640000, .i32⟩ : BufTy).Contents (Elt F) → (⟨S640000x1, .i32⟩ : BufTy).Contents (Elt F)),
    binary main_v42 main_v69 main_v70 ((fun x i => Host.gather gather_S100000x256_S640000x1_S640000x256_1_0_n_n_0_1_1256 x i) : (⟨S100000x256, .f32⟩ : BufTy).Contents (Elt F) → (⟨S640000x1, .i32⟩ : BufTy).Contents (Elt F) → (⟨S640000x256, .f32⟩ : BufTy).Contents (Elt F)),
    nullary main_cst_21 (constant S_ .f32 0x00000000#32),
    unary main_cst_21 main_v71 (broadcastInDim S100000x256 ![] bcast_S_S100000x256 : (⟨S_, .f32⟩ : BufTy).Contents (Elt F) → (⟨S100000x256, .f32⟩ : BufTy).Contents (Elt F)),
    unary main_arg4 main_v72 (broadcastInDim S640000x1 ![0] bcast_S640000_S640000x1_0 : (⟨S640000, .i32⟩ : BufTy).Contents (Elt F) → (⟨S640000x1, .i32⟩ : BufTy).Contents (Elt F)),
    ternary main_v71 main_v72 main_v70 main_v73 ((fun x i u => Host.scatterAdd scatter_S100000x256_S640000x1_S640000x256_1_0_0_1 x i u) : (⟨S100000x256, .f32⟩ : BufTy).Contents (Elt F) → (⟨S640000x1, .i32⟩ : BufTy).Contents (Elt F) → (⟨S640000x256, .f32⟩ : BufTy).Contents (Elt F) → (⟨S100000x256, .f32⟩ : BufTy).Contents (Elt F)),
    nullary main_cst_22 (constant S_ .f32 0x3F800000#32),
    unary main_cst_22 main_v74 (broadcastInDim S640000 ![] bcast_S_S640000 : (⟨S_, .f32⟩ : BufTy).Contents (Elt F) → (⟨S640000, .f32⟩ : BufTy).Contents (Elt F)),
    nullary main_cst_23 (constant S_ .f32 0x00000000#32),
    unary main_cst_23 main_v75 (broadcastInDim S100000 ![] bcast_S_S100000 : (⟨S_, .f32⟩ : BufTy).Contents (Elt F) → (⟨S100000, .f32⟩ : BufTy).Contents (Elt F)),
    unary main_arg4 main_v76 (broadcastInDim S640000x1 ![0] bcast_S640000_S640000x1_0 : (⟨S640000, .i32⟩ : BufTy).Contents (Elt F) → (⟨S640000x1, .i32⟩ : BufTy).Contents (Elt F)),
    ternary main_v75 main_v76 main_v74 main_v77 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_24 (constant S_ .f32 0x3F800000#32),
    unary main_cst_24 main_v78 (broadcastInDim S100000 ![] bcast_S_S100000 : (⟨S_, .f32⟩ : BufTy).Contents (Elt F) → (⟨S100000, .f32⟩ : BufTy).Contents (Elt F)),
    binary main_v77 main_v78 main_v79 (maximumf : (⟨S100000, .f32⟩ : BufTy).Contents (Elt F) → (⟨S100000, .f32⟩ : BufTy).Contents (Elt F) → (⟨S100000, .f32⟩ : BufTy).Contents (Elt F)),
    unary main_v79 main_v80 (broadcastInDim S100000x1 ![0] bcast_S100000_S100000x1_0 : (⟨S100000, .f32⟩ : BufTy).Contents (Elt F) → (⟨S100000x1, .f32⟩ : BufTy).Contents (Elt F)),
    unary main_v80 main_v81 (broadcastInDim S100000x256 ![0, 1] bcast_S100000x1_S100000x256_0_1 : (⟨S100000x1, .f32⟩ : BufTy).Contents (Elt F) → (⟨S100000x256, .f32⟩ : BufTy).Contents (Elt F)),
    binary main_v73 main_v81 main_v82 (Host.divf : (⟨S100000x256, .f32⟩ : BufTy).Contents (Elt F) → (⟨S100000x256, .f32⟩ : BufTy).Contents (Elt F) → (⟨S100000x256, .f32⟩ : BufTy).Contents (Elt F)),
    binary main_v42 main_v82 main_v83 (addf : (⟨S100000x256, .f32⟩ : BufTy).Contents (Elt F) → (⟨S100000x256, .f32⟩ : BufTy).Contents (Elt F) → (⟨S100000x256, .f32⟩ : BufTy).Contents (Elt F)),
    nullary main_cst_25 (constant S_ .f32 0x3C23D70A#32),
    TRef.nullary main_call3.cst (constant S_ .f32 0x00000000#32),
    TRef.unary main_call3.cst main_call3.v0 (broadcastInDim S100000x256 ![] bcast_S_S100000x256),
    TRef.binary (.of main_v83 : TRef sig ⟨S100000x256, .f32⟩) main_call3.v0 main_call3.v1 (cmpf .oge),
    TRef.unary (.of main_cst_25 : TRef sig ⟨S_, .f32⟩) main_call3.v2 id,
    TRef.unary main_call3.v2 main_call3.v3 (broadcastInDim S100000x256 ![] bcast_S_S100000x256),
    TRef.binary main_call3.v3 (.of main_v83 : TRef sig ⟨S100000x256, .f32⟩) main_call3.v4 mulf,
    TRef.ternary main_call3.v1 (.of main_v83 : TRef sig ⟨S100000x256, .f32⟩) main_call3.v4 main_call3.call0.v0 select,
    binary main_v63 main_v84 main_v85 ((fun a b => concatenate S100000x512 1 [⟨S100000x256, a⟩, ⟨S100000x256, b⟩] concatenates_S100000x256_S100000x256_S100000x512_d1) : (⟨S100000x256, .f32⟩ : BufTy).Contents (Elt F) → (⟨S100000x256, .f32⟩ : BufTy).Contents (Elt F) → (⟨S100000x512, .f32⟩ : BufTy).Contents (Elt F)) ]

set_option maxRecDepth 16384 in
/-- @main is that straight line: sequencing in the free monad grafts the continuation onto the leaves by
    computation, so the two windows run in order, with each call's body and each record's fields unfolded, are the
    one chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., binary_bufs_sub .., nullary_bufs_sub .., nullary_bufs_sub .., unary_bufs_sub .., binary_bufs_sub ..,
    unary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub .., binary_bufs_sub .., nullary_bufs_sub ..,
    nullary_bufs_sub .., unary_bufs_sub .., binary_bufs_sub .., unary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    unary_bufs_sub .., binary_bufs_sub .., binary_bufs_sub .., nullary_bufs_sub .., nullary_bufs_sub .., unary_bufs_sub ..,
    binary_bufs_sub .., unary_bufs_sub .., unary_bufs_sub .., binary_bufs_sub .., ternary_bufs_sub .., binary_bufs_sub ..⟩

/-- At the compiled mesh, for any float values, from any memory with zero counters: every weakly fair execution of
    @main on the TensorCore terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold, layer by layer

The fold is read back in two stages, one per layer, each ending in its concatenation: within a stage every buffer's
contents are rewritten at the top of the goal, and a concatenation is crossed by rewriting its two operands'
contents with the stage's value lemmas. -/

/-- The fold of a concatenation of lines is the folds in turn. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The first layer's 68 operations before its concatenation: the two branches. -/
abbrev opsL1 : List (HloOp τ sig (Elt F)) :=
  [ nullary main_c (constantI S_ 32 0#32),
    unary main_c main_v0 (broadcastInDim S640000 ![] bcast_S_S640000 : (⟨S_, .i32⟩ : BufTy).Contents (Elt F) → (⟨S640000, .i32⟩ : BufTy).Contents (Elt F)),
    binary main_arg1 main_v0 main_v1 (cmpi .slt : (⟨S640000, .i32⟩ : BufTy).Contents (Elt F) → (⟨S640000, .i32⟩ : BufTy).Contents (Elt F) → (⟨S640000, .i1⟩ : BufTy).Contents (Elt F)),
    nullary main_c_0 (constantI S_ 32 100000#32),
    unary main_c_0 main_v2 (broadcastInDim S640000 ![] bcast_S_S640000 : (⟨S_, .i32⟩ : BufTy).Contents (Elt F) → (⟨S640000, .i32⟩ : BufTy).Contents (Elt F)),
    binary main_arg1 main_v2 main_v3 (addi : (⟨S640000, .i32⟩ : BufTy).Contents (Elt F) → (⟨S640000, .i32⟩ : BufTy).Contents (Elt F) → (⟨S640000, .i32⟩ : BufTy).Contents (Elt F)),
    ternary main_v1 main_v3 main_arg1 main_v4 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v4 main_v5 (broadcastInDim S640000x1 ![0] bcast_S640000_S640000x1_0 : (⟨S640000, .i32⟩ : BufTy).Contents (Elt F) → (⟨S640000x1, .i32⟩ : BufTy).Contents (Elt F)),
    binary main_arg0 main_v5 main_v6 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    nullary main_cst (constant S_ .f32 0x00000000#32),
    unary main_cst main_v7 (broadcastInDim S100000x128 ![] bcast_S_S100000x128 : (⟨S_, .f32⟩ : BufTy).Contents (Elt F) → (⟨S100000x128, .f32⟩ : BufTy).Contents (Elt F)),
    unary main_arg2 main_v8 (broadcastInDim S640000x1 ![0] bcast_S640000_S640000x1_0 : (⟨S640000, .i32⟩ : BufTy).Contents (Elt F) → (⟨S640000x1, .i32⟩ : BufTy).Contents (Elt F)),
    ternary main_v7 main_v8 main_v6 main_v9 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    nullary main_cst_1 (constant S_ .f32 0x3F800000#32),
    unary main_cst_1 main_v10 (broadcastInDim S640000 ![] bcast_S_S640000 : (⟨S_, .f32⟩ : BufTy).Contents (Elt F) → (⟨S640000, .f32⟩ : BufTy).Contents (Elt F)),
    nullary main_cst_2 (constant S_ .f32 0x00000000#32),
    unary main_cst_2 main_v11 (broadcastInDim S100000 ![] bcast_S_S100000 : (⟨S_, .f32⟩ : BufTy).Contents (Elt F) → (⟨S100000, .f32⟩ : BufTy).Contents (Elt F)),
    unary main_arg2 main_v12 (broadcastInDim S640000x1 ![0] bcast_S640000_S640000x1_0 : (⟨S640000, .i32⟩ : BufTy).Contents (Elt F) → (⟨S640000x1, .i32⟩ : BufTy).Contents (Elt F)),
    ternary main_v11 main_v12 main_v10 main_v13 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_3 (constant S_ .f32 0x3F800000#32),
    unary main_cst_3 main_v14 (broadcastInDim S100000 ![] bcast_S_S100000 : (⟨S_, .f32⟩ : BufTy).Contents (Elt F) → (⟨S100000, .f32⟩ : BufTy).Contents (Elt F)),
    binary main_v13 main_v14 main_v15 (maximumf : (⟨S100000, .f32⟩ : BufTy).Contents (Elt F) → (⟨S100000, .f32⟩ : BufTy).Contents (Elt F) → (⟨S100000, .f32⟩ : BufTy).Contents (Elt F)),
    unary main_v15 main_v16 (broadcastInDim S100000x1 ![0] bcast_S100000_S100000x1_0 : (⟨S100000, .f32⟩ : BufTy).Contents (Elt F) → (⟨S100000x1, .f32⟩ : BufTy).Contents (Elt F)),
    unary main_v16 main_v17 (broadcastInDim S100000x128 ![0, 1] bcast_S100000x1_S100000x128_0_1 : (⟨S100000x1, .f32⟩ : BufTy).Contents (Elt F) → (⟨S100000x128, .f32⟩ : BufTy).Contents (Elt F)),
    binary main_v9 main_v17 main_v18 (Host.divf : (⟨S100000x128, .f32⟩ : BufTy).Contents (Elt F) → (⟨S100000x128, .f32⟩ : BufTy).Contents (Elt F) → (⟨S100000x128, .f32⟩ : BufTy).Contents (Elt F)),
    binary main_arg0 main_v18 main_v19 (addf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3C23D70A#32),
    TRef.nullary main_call0.cst (constant S_ .f32 0x00000000#32),
    TRef.unary main_call0.cst main_call0.v0 (broadcastInDim S100000x128 ![] bcast_S_S100000x128),
    TRef.binary (.of main_v19 : TRef sig ⟨S100000x128, .f32⟩) main_call0.v0 main_call0.v1 (cmpf .oge),
    TRef.unary (.of main_cst_4 : TRef sig ⟨S_, .f32⟩) main_call0.v2 id,
    TRef.unary main_call0.v2 main_call0.v3 (broadcastInDim S100000x128 ![] bcast_S_S100000x128),
    TRef.binary main_call0.v3 (.of main_v19 : TRef sig ⟨S100000x128, .f32⟩) main_call0.v4 mulf,
    TRef.ternary main_call0.v1 (.of main_v19 : TRef sig ⟨S100000x128, .f32⟩) main_call0.v4 main_call0.call0.v0 select,
    nullary main_c_5 (constantI S_ 32 0#32),
    unary main_c_5 main_v21 (broadcastInDim S640000 ![] bcast_S_S640000 : (⟨S_, .i32⟩ : BufTy).Contents (Elt F) → (⟨S640000, .i32⟩ : BufTy).Contents (Elt F)),
    binary main_arg3 main_v21 main_v22 (cmpi .slt : (⟨S640000, .i32⟩ : BufTy).Contents (Elt F) → (⟨S640000, .i32⟩ : BufTy).Contents (Elt F) → (⟨S640000, .i1⟩ : BufTy).Contents (Elt F)),
    nullary main_c_6 (constantI S_ 32 100000#32),
    unary main_c_6 main_v23 (broadcastInDim S640000 ![] bcast_S_S640000 : (⟨S_, .i32⟩ : BufTy).Contents (Elt F) → (⟨S640000, .i32⟩ : BufTy).Contents (Elt F)),
    binary main_arg3 main_v23 main_v24 (addi : (⟨S640000, .i32⟩ : BufTy).Contents (Elt F) → (⟨S640000, .i32⟩ : BufTy).Contents (Elt F) → (⟨S640000, .i32⟩ : BufTy).Contents (Elt F)),
    ternary main_v22 main_v24 main_arg3 main_v25 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v25 main_v26 (broadcastInDim S640000x1 ![0] bcast_S640000_S640000x1_0 : (⟨S640000, .i32⟩ : BufTy).Contents (Elt F) → (⟨S640000x1, .i32⟩ : BufTy).Contents (Elt F)),
    binary main_arg0 main_v26 main_v27 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    nullary main_cst_7 (constant S_ .f32 0x00000000#32),
    unary main_cst_7 main_v28 (broadcastInDim S100000x128 ![] bcast_S_S100000x128 : (⟨S_, .f32⟩ : BufTy).Contents (Elt F) → (⟨S100000x128, .f32⟩ : BufTy).Contents (Elt F)),
    unary main_arg4 main_v29 (broadcastInDim S640000x1 ![0] bcast_S640000_S640000x1_0 : (⟨S640000, .i32⟩ : BufTy).Contents (Elt F) → (⟨S640000x1, .i32⟩ : BufTy).Contents (Elt F)),
    ternary main_v28 main_v29 main_v27 main_v30 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    nullary main_cst_8 (constant S_ .f32 0x3F800000#32),
    unary main_cst_8 main_v31 (broadcastInDim S640000 ![] bcast_S_S640000 : (⟨S_, .f32⟩ : BufTy).Contents (Elt F) → (⟨S640000, .f32⟩ : BufTy).Contents (Elt F)),
    nullary main_cst_9 (constant S_ .f32 0x00000000#32),
    unary main_cst_9 main_v32 (broadcastInDim S100000 ![] bcast_S_S100000 : (⟨S_, .f32⟩ : BufTy).Contents (Elt F) → (⟨S100000, .f32⟩ : BufTy).Contents (Elt F)),
    unary main_arg4 main_v33 (broadcastInDim S640000x1 ![0] bcast_S640000_S640000x1_0 : (⟨S640000, .i32⟩ : BufTy).Contents (Elt F) → (⟨S640000x1, .i32⟩ : BufTy).Contents (Elt F)),
    ternary main_v32 main_v33 main_v31 main_v34 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_10 (constant S_ .f32 0x3F800000#32),
    unary main_cst_10 main_v35 (broadcastInDim S100000 ![] bcast_S_S100000 : (⟨S_, .f32⟩ : BufTy).Contents (Elt F) → (⟨S100000, .f32⟩ : BufTy).Contents (Elt F)),
    binary main_v34 main_v35 main_v36 (maximumf : (⟨S100000, .f32⟩ : BufTy).Contents (Elt F) → (⟨S100000, .f32⟩ : BufTy).Contents (Elt F) → (⟨S100000, .f32⟩ : BufTy).Contents (Elt F)),
    unary main_v36 main_v37 (broadcastInDim S100000x1 ![0] bcast_S100000_S100000x1_0 : (⟨S100000, .f32⟩ : BufTy).Contents (Elt F) → (⟨S100000x1, .f32⟩ : BufTy).Contents (Elt F)),
    unary main_v37 main_v38 (broadcastInDim S100000x128 ![0, 1] bcast_S100000x1_S100000x128_0_1 : (⟨S100000x1, .f32⟩ : BufTy).Contents (Elt F) → (⟨S100000x128, .f32⟩ : BufTy).Contents (Elt F)),
    binary main_v30 main_v38 main_v39 (Host.divf : (⟨S100000x128, .f32⟩ : BufTy).Contents (Elt F) → (⟨S100000x128, .f32⟩ : BufTy).Contents (Elt F) → (⟨S100000x128, .f32⟩ : BufTy).Contents (Elt F)),
    binary main_arg0 main_v39 main_v40 (addf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3C23D70A#32),
    TRef.nullary main_call1.cst (constant S_ .f32 0x00000000#32),
    TRef.unary main_call1.cst main_call1.v0 (broadcastInDim S100000x128 ![] bcast_S_S100000x128),
    TRef.binary (.of main_v40 : TRef sig ⟨S100000x128, .f32⟩) main_call1.v0 main_call1.v1 (cmpf .oge),
    TRef.unary (.of main_cst_11 : TRef sig ⟨S_, .f32⟩) main_call1.v2 id,
    TRef.unary main_call1.v2 main_call1.v3 (broadcastInDim S100000x128 ![] bcast_S_S100000x128),
    TRef.binary main_call1.v3 (.of main_v40 : TRef sig ⟨S100000x128, .f32⟩) main_call1.v4 mulf,
    TRef.ternary main_call1.v1 (.of main_v40 : TRef sig ⟨S100000x128, .f32⟩) main_call1.v4 main_call1.call0.v0 select ]

/-- The first layer's concatenation. -/
abbrev opC1 : HloOp τ sig (Elt F) :=
  binary main_v20 main_v41 main_v42 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F))

/-- The second layer's 68 operations before its concatenation: the two branches over the first layer's result. -/
abbrev opsL2 : List (HloOp τ sig (Elt F)) :=
  [ nullary main_c_12 (constantI S_ 32 0#32),
    unary main_c_12 main_v43 (broadcastInDim S640000 ![] bcast_S_S640000 : (⟨S_, .i32⟩ : BufTy).Contents (Elt F) → (⟨S640000, .i32⟩ : BufTy).Contents (Elt F)),
    binary main_arg1 main_v43 main_v44 (cmpi .slt : (⟨S640000, .i32⟩ : BufTy).Contents (Elt F) → (⟨S640000, .i32⟩ : BufTy).Contents (Elt F) → (⟨S640000, .i1⟩ : BufTy).Contents (Elt F)),
    nullary main_c_13 (constantI S_ 32 100000#32),
    unary main_c_13 main_v45 (broadcastInDim S640000 ![] bcast_S_S640000 : (⟨S_, .i32⟩ : BufTy).Contents (Elt F) → (⟨S640000, .i32⟩ : BufTy).Contents (Elt F)),
    binary main_arg1 main_v45 main_v46 (addi : (⟨S640000, .i32⟩ : BufTy).Contents (Elt F) → (⟨S640000, .i32⟩ : BufTy).Contents (Elt F) → (⟨S640000, .i32⟩ : BufTy).Contents (Elt F)),
    ternary main_v44 main_v46 main_arg1 main_v47 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v47 main_v48 (broadcastInDim S640000x1 ![0] bcast_S640000_S640000x1_0 : (⟨S640000, .i32⟩ : BufTy).Contents (Elt F) → (⟨S640000x1, .i32⟩ : BufTy).Contents (Elt F)),
    binary main_v42 main_v48 main_v49 ((fun x i => Host.gather gather_S100000x256_S640000x1_S640000x256_1_0_n_n_0_1_1256 x i) : (⟨S100000x256, .f32⟩ : BufTy).Contents (Elt F) → (⟨S640000x1, .i32⟩ : BufTy).Contents (Elt F) → (⟨S640000x256, .f32⟩ : BufTy).Contents (Elt F)),
    nullary main_cst_14 (constant S_ .f32 0x00000000#32),
    unary main_cst_14 main_v50 (broadcastInDim S100000x256 ![] bcast_S_S100000x256 : (⟨S_, .f32⟩ : BufTy).Contents (Elt F) → (⟨S100000x256, .f32⟩ : BufTy).Contents (Elt F)),
    unary main_arg2 main_v51 (broadcastInDim S640000x1 ![0] bcast_S640000_S640000x1_0 : (⟨S640000, .i32⟩ : BufTy).Contents (Elt F) → (⟨S640000x1, .i32⟩ : BufTy).Contents (Elt F)),
    ternary main_v50 main_v51 main_v49 main_v52 ((fun x i u => Host.scatterAdd scatter_S100000x256_S640000x1_S640000x256_1_0_0_1 x i u) : (⟨S100000x256, .f32⟩ : BufTy).Contents (Elt F) → (⟨S640000x1, .i32⟩ : BufTy).Contents (Elt F) → (⟨S640000x256, .f32⟩ : BufTy).Contents (Elt F) → (⟨S100000x256, .f32⟩ : BufTy).Contents (Elt F)),
    nullary main_cst_15 (constant S_ .f32 0x3F800000#32),
    unary main_cst_15 main_v53 (broadcastInDim S640000 ![] bcast_S_S640000 : (⟨S_, .f32⟩ : BufTy).Contents (Elt F) → (⟨S640000, .f32⟩ : BufTy).Contents (Elt F)),
    nullary main_cst_16 (constant S_ .f32 0x00000000#32),
    unary main_cst_16 main_v54 (broadcastInDim S100000 ![] bcast_S_S100000 : (⟨S_, .f32⟩ : BufTy).Contents (Elt F) → (⟨S100000, .f32⟩ : BufTy).Contents (Elt F)),
    unary main_arg2 main_v55 (broadcastInDim S640000x1 ![0] bcast_S640000_S640000x1_0 : (⟨S640000, .i32⟩ : BufTy).Contents (Elt F) → (⟨S640000x1, .i32⟩ : BufTy).Contents (Elt F)),
    ternary main_v54 main_v55 main_v53 main_v56 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_17 (constant S_ .f32 0x3F800000#32),
    unary main_cst_17 main_v57 (broadcastInDim S100000 ![] bcast_S_S100000 : (⟨S_, .f32⟩ : BufTy).Contents (Elt F) → (⟨S100000, .f32⟩ : BufTy).Contents (Elt F)),
    binary main_v56 main_v57 main_v58 (maximumf : (⟨S100000, .f32⟩ : BufTy).Contents (Elt F) → (⟨S100000, .f32⟩ : BufTy).Contents (Elt F) → (⟨S100000, .f32⟩ : BufTy).Contents (Elt F)),
    unary main_v58 main_v59 (broadcastInDim S100000x1 ![0] bcast_S100000_S100000x1_0 : (⟨S100000, .f32⟩ : BufTy).Contents (Elt F) → (⟨S100000x1, .f32⟩ : BufTy).Contents (Elt F)),
    unary main_v59 main_v60 (broadcastInDim S100000x256 ![0, 1] bcast_S100000x1_S100000x256_0_1 : (⟨S100000x1, .f32⟩ : BufTy).Contents (Elt F) → (⟨S100000x256, .f32⟩ : BufTy).Contents (Elt F)),
    binary main_v52 main_v60 main_v61 (Host.divf : (⟨S100000x256, .f32⟩ : BufTy).Contents (Elt F) → (⟨S100000x256, .f32⟩ : BufTy).Contents (Elt F) → (⟨S100000x256, .f32⟩ : BufTy).Contents (Elt F)),
    binary main_v42 main_v61 main_v62 (addf : (⟨S100000x256, .f32⟩ : BufTy).Contents (Elt F) → (⟨S100000x256, .f32⟩ : BufTy).Contents (Elt F) → (⟨S100000x256, .f32⟩ : BufTy).Contents (Elt F)),
    nullary main_cst_18 (constant S_ .f32 0x3C23D70A#32),
    TRef.nullary main_call2.cst (constant S_ .f32 0x00000000#32),
    TRef.unary main_call2.cst main_call2.v0 (broadcastInDim S100000x256 ![] bcast_S_S100000x256),
    TRef.binary (.of main_v62 : TRef sig ⟨S100000x256, .f32⟩) main_call2.v0 main_call2.v1 (cmpf .oge),
    TRef.unary (.of main_cst_18 : TRef sig ⟨S_, .f32⟩) main_call2.v2 id,
    TRef.unary main_call2.v2 main_call2.v3 (broadcastInDim S100000x256 ![] bcast_S_S100000x256),
    TRef.binary main_call2.v3 (.of main_v62 : TRef sig ⟨S100000x256, .f32⟩) main_call2.v4 mulf,
    TRef.ternary main_call2.v1 (.of main_v62 : TRef sig ⟨S100000x256, .f32⟩) main_call2.v4 main_call2.call0.v0 select,
    nullary main_c_19 (constantI S_ 32 0#32),
    unary main_c_19 main_v64 (broadcastInDim S640000 ![] bcast_S_S640000 : (⟨S_, .i32⟩ : BufTy).Contents (Elt F) → (⟨S640000, .i32⟩ : BufTy).Contents (Elt F)),
    binary main_arg3 main_v64 main_v65 (cmpi .slt : (⟨S640000, .i32⟩ : BufTy).Contents (Elt F) → (⟨S640000, .i32⟩ : BufTy).Contents (Elt F) → (⟨S640000, .i1⟩ : BufTy).Contents (Elt F)),
    nullary main_c_20 (constantI S_ 32 100000#32),
    unary main_c_20 main_v66 (broadcastInDim S640000 ![] bcast_S_S640000 : (⟨S_, .i32⟩ : BufTy).Contents (Elt F) → (⟨S640000, .i32⟩ : BufTy).Contents (Elt F)),
    binary main_arg3 main_v66 main_v67 (addi : (⟨S640000, .i32⟩ : BufTy).Contents (Elt F) → (⟨S640000, .i32⟩ : BufTy).Contents (Elt F) → (⟨S640000, .i32⟩ : BufTy).Contents (Elt F)),
    ternary main_v65 main_v67 main_arg3 main_v68 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v68 main_v69 (broadcastInDim S640000x1 ![0] bcast_S640000_S640000x1_0 : (⟨S640000, .i32⟩ : BufTy).Contents (Elt F) → (⟨S640000x1, .i32⟩ : BufTy).Contents (Elt F)),
    binary main_v42 main_v69 main_v70 ((fun x i => Host.gather gather_S100000x256_S640000x1_S640000x256_1_0_n_n_0_1_1256 x i) : (⟨S100000x256, .f32⟩ : BufTy).Contents (Elt F) → (⟨S640000x1, .i32⟩ : BufTy).Contents (Elt F) → (⟨S640000x256, .f32⟩ : BufTy).Contents (Elt F)),
    nullary main_cst_21 (constant S_ .f32 0x00000000#32),
    unary main_cst_21 main_v71 (broadcastInDim S100000x256 ![] bcast_S_S100000x256 : (⟨S_, .f32⟩ : BufTy).Contents (Elt F) → (⟨S100000x256, .f32⟩ : BufTy).Contents (Elt F)),
    unary main_arg4 main_v72 (broadcastInDim S640000x1 ![0] bcast_S640000_S640000x1_0 : (⟨S640000, .i32⟩ : BufTy).Contents (Elt F) → (⟨S640000x1, .i32⟩ : BufTy).Contents (Elt F)),
    ternary main_v71 main_v72 main_v70 main_v73 ((fun x i u => Host.scatterAdd scatter_S100000x256_S640000x1_S640000x256_1_0_0_1 x i u) : (⟨S100000x256, .f32⟩ : BufTy).Contents (Elt F) → (⟨S640000x1, .i32⟩ : BufTy).Contents (Elt F) → (⟨S640000x256, .f32⟩ : BufTy).Contents (Elt F) → (⟨S100000x256, .f32⟩ : BufTy).Contents (Elt F)),
    nullary main_cst_22 (constant S_ .f32 0x3F800000#32),
    unary main_cst_22 main_v74 (broadcastInDim S640000 ![] bcast_S_S640000 : (⟨S_, .f32⟩ : BufTy).Contents (Elt F) → (⟨S640000, .f32⟩ : BufTy).Contents (Elt F)),
    nullary main_cst_23 (constant S_ .f32 0x00000000#32),
    unary main_cst_23 main_v75 (broadcastInDim S100000 ![] bcast_S_S100000 : (⟨S_, .f32⟩ : BufTy).Contents (Elt F) → (⟨S100000, .f32⟩ : BufTy).Contents (Elt F)),
    unary main_arg4 main_v76 (broadcastInDim S640000x1 ![0] bcast_S640000_S640000x1_0 : (⟨S640000, .i32⟩ : BufTy).Contents (Elt F) → (⟨S640000x1, .i32⟩ : BufTy).Contents (Elt F)),
    ternary main_v75 main_v76 main_v74 main_v77 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_24 (constant S_ .f32 0x3F800000#32),
    unary main_cst_24 main_v78 (broadcastInDim S100000 ![] bcast_S_S100000 : (⟨S_, .f32⟩ : BufTy).Contents (Elt F) → (⟨S100000, .f32⟩ : BufTy).Contents (Elt F)),
    binary main_v77 main_v78 main_v79 (maximumf : (⟨S100000, .f32⟩ : BufTy).Contents (Elt F) → (⟨S100000, .f32⟩ : BufTy).Contents (Elt F) → (⟨S100000, .f32⟩ : BufTy).Contents (Elt F)),
    unary main_v79 main_v80 (broadcastInDim S100000x1 ![0] bcast_S100000_S100000x1_0 : (⟨S100000, .f32⟩ : BufTy).Contents (Elt F) → (⟨S100000x1, .f32⟩ : BufTy).Contents (Elt F)),
    unary main_v80 main_v81 (broadcastInDim S100000x256 ![0, 1] bcast_S100000x1_S100000x256_0_1 : (⟨S100000x1, .f32⟩ : BufTy).Contents (Elt F) → (⟨S100000x256, .f32⟩ : BufTy).Contents (Elt F)),
    binary main_v73 main_v81 main_v82 (Host.divf : (⟨S100000x256, .f32⟩ : BufTy).Contents (Elt F) → (⟨S100000x256, .f32⟩ : BufTy).Contents (Elt F) → (⟨S100000x256, .f32⟩ : BufTy).Contents (Elt F)),
    binary main_v42 main_v82 main_v83 (addf : (⟨S100000x256, .f32⟩ : BufTy).Contents (Elt F) → (⟨S100000x256, .f32⟩ : BufTy).Contents (Elt F) → (⟨S100000x256, .f32⟩ : BufTy).Contents (Elt F)),
    nullary main_cst_25 (constant S_ .f32 0x3C23D70A#32),
    TRef.nullary main_call3.cst (constant S_ .f32 0x00000000#32),
    TRef.unary main_call3.cst main_call3.v0 (broadcastInDim S100000x256 ![] bcast_S_S100000x256),
    TRef.binary (.of main_v83 : TRef sig ⟨S100000x256, .f32⟩) main_call3.v0 main_call3.v1 (cmpf .oge),
    TRef.unary (.of main_cst_25 : TRef sig ⟨S_, .f32⟩) main_call3.v2 id,
    TRef.unary main_call3.v2 main_call3.v3 (broadcastInDim S100000x256 ![] bcast_S_S100000x256),
    TRef.binary main_call3.v3 (.of main_v83 : TRef sig ⟨S100000x256, .f32⟩) main_call3.v4 mulf,
    TRef.ternary main_call3.v1 (.of main_v83 : TRef sig ⟨S100000x256, .f32⟩) main_call3.v4 main_call3.call0.v0 select ]

/-- The second layer's concatenation. -/
abbrev opC2 : HloOp τ sig (Elt F) :=
  binary main_v63 main_v84 main_v85 ((fun a b => concatenate S100000x512 1 [⟨S100000x256, a⟩, ⟨S100000x256, b⟩] concatenates_S100000x256_S100000x256_S100000x512_d1) : (⟨S100000x256, .f32⟩ : BufTy).Contents (Elt F) → (⟨S100000x256, .f32⟩ : BufTy).Contents (Elt F) → (⟨S100000x512, .f32⟩ : BufTy).Contents (Elt F))

/-- @main's operations are the two stages in order. -/
theorem ops_split : (ops : List (HloOp τ sig (Elt F))) = opsL1 ++ opC1 :: (opsL2 ++ [opC2]) := rfl

attribute [local irreducible] Host.gather Host.scatterAdd in
set_option maxRecDepth 16384 in
set_option maxHeartbeats 1600000 in
/-- After the first layer's branches the first rectifier's result is the rectified sum over edge set 1. -/
theorem l1_v20 (W : Valuation τ sig (Elt F)) :
    after opsL1 W (main_v20 : DevRef τ sig)
      = leaky128 (addf (W (main_arg0 : DevRef τ sig)) (mean128 (W (main_arg0 : DevRef τ sig)) (W (main_arg1 : DevRef τ sig)) (W (main_arg2 : DevRef τ sig)))) := by
  after_results_simp
  rfl

attribute [local irreducible] Host.gather Host.scatterAdd in
set_option maxRecDepth 16384 in
set_option maxHeartbeats 1600000 in
/-- … and the second's the rectified sum over edge set 2. -/
theorem l1_v41 (W : Valuation τ sig (Elt F)) :
    after opsL1 W (main_v41 : DevRef τ sig)
      = leaky128 (addf (W (main_arg0 : DevRef τ sig)) (mean128 (W (main_arg0 : DevRef τ sig)) (W (main_arg3 : DevRef τ sig)) (W (main_arg4 : DevRef τ sig)))) := by
  after_results_simp
  rfl

set_option maxRecDepth 16384 in
set_option maxHeartbeats 1600000 in
/-- The first layer's branches write no argument buffer. -/
theorem l1_arg1 (W : Valuation τ sig (Elt F)) : after opsL1 W (main_arg1 : DevRef τ sig) = W (main_arg1 : DevRef τ sig) := by
  after_results_simp

set_option maxRecDepth 16384 in
set_option maxHeartbeats 1600000 in
theorem l1_arg2 (W : Valuation τ sig (Elt F)) : after opsL1 W (main_arg2 : DevRef τ sig) = W (main_arg2 : DevRef τ sig) := by
  after_results_simp

set_option maxRecDepth 16384 in
set_option maxHeartbeats 1600000 in
theorem l1_arg3 (W : Valuation τ sig (Elt F)) : after opsL1 W (main_arg3 : DevRef τ sig) = W (main_arg3 : DevRef τ sig) := by
  after_results_simp

set_option maxRecDepth 16384 in
set_option maxHeartbeats 1600000 in
theorem l1_arg4 (W : Valuation τ sig (Elt F)) : after opsL1 W (main_arg4 : DevRef τ sig) = W (main_arg4 : DevRef τ sig) := by
  after_results_simp

attribute [local irreducible] Host.gather Host.scatterAdd in
set_option maxRecDepth 16384 in
set_option maxHeartbeats 1600000 in
/-- After the second layer's branches, from any contents: the third rectifier's result is the rectified sum of the
    first layer's result and its neighbour mean over edge set 1. -/
theorem l2_v63 (W : Valuation τ sig (Elt F)) :
    after opsL2 W (main_v63 : DevRef τ sig)
      = leaky256 (addf (W (main_v42 : DevRef τ sig)) (mean256 (W (main_v42 : DevRef τ sig)) (W (main_arg1 : DevRef τ sig)) (W (main_arg2 : DevRef τ sig)))) := by
  after_results_simp
  rfl

attribute [local irreducible] Host.gather Host.scatterAdd in
set_option maxRecDepth 16384 in
set_option maxHeartbeats 1600000 in
/-- … and the fourth's the same over edge set 2. -/
theorem l2_v84 (W : Valuation τ sig (Elt F)) :
    after opsL2 W (main_v84 : DevRef τ sig)
      = leaky256 (addf (W (main_v42 : DevRef τ sig)) (mean256 (W (main_v42 : DevRef τ sig)) (W (main_arg3 : DevRef τ sig)) (W (main_arg4 : DevRef τ sig)))) := by
  after_results_simp
  rfl

attribute [local irreducible] Host.gather Host.scatterAdd in
set_option maxRecDepth 16384 in
set_option maxHeartbeats 1600000 in
/-- The fold at the result buffer is `refOut` of the arguments: the second concatenation of the second layer's two
    rectified sums, which read the first concatenation — of the first layer's two rectified sums — and the four index
    arguments, which the first layer leaves as they were. -/
theorem out_eq (V : Valuation τ sig (Elt F)) :
    after ops V (main_v85 : DevRef τ sig)
      = refOut (V (main_arg0 : DevRef τ sig)) (V (main_arg1 : DevRef τ sig)) (V (main_arg2 : DevRef τ sig))
          (V (main_arg3 : DevRef τ sig)) (V (main_arg4 : DevRef τ sig)) := by
  rw [ops_split, after_append, after_cons, after_append, after_cons, after_nil]
  rw [binary_result, l2_v63, l2_v84, binary_result]
  repeat (rw [binary_result_ne]; rotate_left; decide)
  rw [l1_v20, l1_v41, l1_arg1, l1_arg2, l1_arg3, l1_arg4]
  rfl

set_option maxRecDepth 16384 in
set_option maxHeartbeats 1600000 in
/-- No operation writes an argument buffer: the arguments end as they began. -/
theorem arg0_eq (V : Valuation τ sig (Elt F)) : after ops V (main_arg0 : DevRef τ sig) = V (main_arg0 : DevRef τ sig) := by
  after_results_simp

set_option maxRecDepth 16384 in
set_option maxHeartbeats 1600000 in
theorem arg1_eq (V : Valuation τ sig (Elt F)) : after ops V (main_arg1 : DevRef τ sig) = V (main_arg1 : DevRef τ sig) := by
  after_results_simp

set_option maxRecDepth 16384 in
set_option maxHeartbeats 1600000 in
theorem arg2_eq (V : Valuation τ sig (Elt F)) : after ops V (main_arg2 : DevRef τ sig) = V (main_arg2 : DevRef τ sig) := by
  after_results_simp

set_option maxRecDepth 16384 in
set_option maxHeartbeats 1600000 in
theorem arg3_eq (V : Valuation τ sig (Elt F)) : after ops V (main_arg3 : DevRef τ sig) = V (main_arg3 : DevRef τ sig) := by
  after_results_simp

set_option maxRecDepth 16384 in
set_option maxHeartbeats 1600000 in
theorem arg4_eq (V : Valuation τ sig (Elt F)) : after ops V (main_arg4 : DevRef τ sig) = V (main_arg4 : DevRef τ sig) := by
  after_results_simp

end Cert.ReferenceIdeal.RefRun

end
-- ==== Proof.RunNamed.lean ====
/-
  The kernel program's run, with its result array named.

  Every weakly fair execution of the program terminates without a fault; at the end the five argument arrays are as
  launched, and the result array holds what the buffer-contents fold through the program leaves there: the launch
  memory, carried through the first host stretch, the first launch's write-backs, the second host stretch and the second
  launch's write-backs. The run is the launch theorem for a program of kernel regions among host stretches, applied to
  the segments and the proof data the generated frame module builds; the only thing added here is that the final state is
  read at the result buffer as well as at the arguments.
-/
import proofs.«168979_j72112500899859_1_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: it terminates, nothing faults, the result buffer ends at the last boundary's contents `W4` and the
    arguments end as launched. -/
theorem run : θ_run defs (onTc (τ := τ) (main (F := F))) ⟨m, fun _ => 0, ρ⟩ (fun r => ∀ c : Dev nD,
      r.2.mem ((c.tc : Thread nD τ).loc main_v77) = W4 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v77 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.RunNamed

end
-- ==== Proof.HostChain.lean ====
/-
  The host stretches of the kernel's program, read back.

  Before each of the two kernel launches the program computes, on the host, for each of the two edge sets the mean of
  the in-neighbours' rows: gather the source rows of the current features (a negative source index first moved up by the
  number of nodes), add them up per destination node, count the edges per destination node, and divide the sum by the
  count where the count is at least one and by one elsewhere. Here that whole chain is ONE function `mean` of the
  features and the two index vectors, and each stretch leaves in the buffers the launch reads exactly `mean` of the
  buffers it started from; every other buffer the launch reads is as it was. The chain is never opened: the
  reference applies the same chain, operation for operation.
-/
import proofs.«168979_j72112500899859_1_alg».proof.Proof.Gen.KernelIdeal.Launch
import Idealize.ShloMosaic.Lib.StableHlo.Run

set_option maxRecDepth 16384

noncomputable section

namespace Cert.KernelIdeal.HostChain

open Cert.KernelIdeal Cert.KernelIdeal.Gen Idealize.ShloMosaic Idealize.ShloMosaic.TcCoe Idealize.SL.Sem Idealize.ShloMosaic.StableHlo

variable {F : FTy → Type} [FloatOps F]

/-- The mean of the in-neighbours' rows of a 128-column feature array, as the program spells it. -/
def mean128 (x : FVec F S100000x128 .f32) (src dst : IVec S640000 32) : FVec F S100000x128 .f32 :=
  Host.divf
    (Host.scatterAdd scatter_S100000x128_S640000x1_S640000x128_1_0_0_1
      (broadcastInDim S100000x128 ![] bcast_S_S100000x128 (constant S_ .f32 0x00000000#32))
      (broadcastInDim S640000x1 ![0] bcast_S640000_S640000x1_0 dst)
      (Host.gather gather_S100000x128_S640000x1_S640000x128_1_0_n_n_0_1_1128 x
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 100000#32))) src))))
    (broadcastInDim S100000x128 ![0, 1] bcast_S100000x1_S100000x128_0_1
      (broadcastInDim S100000x1 ![0] bcast_S100000_S100000x1_0
        (maximumf
          (Host.scatterAdd scatter_S100000_S640000x1_S640000_n_0_0_1
            (broadcastInDim S100000 ![] bcast_S_S100000 (constant S_ .f32 0x00000000#32))
            (broadcastInDim S640000x1 ![0] bcast_S640000_S640000x1_0 dst)
            (broadcastInDim S640000 ![] bcast_S_S640000 (constant S_ .f32 0x3F800000#32)))
          (broadcastInDim S100000 ![] bcast_S_S100000 (constant S_ .f32 0x3F800000#32)))))

/-- The same for a 256-column feature array. -/
def mean256 (x : FVec F S100000x256 .f32) (src dst : IVec S640000 32) : FVec F S100000x256 .f32 :=
  Host.divf
    (Host.scatterAdd scatter_S100000x256_S640000x1_S640000x256_1_0_0_1
      (broadcastInDim S100000x256 ![] bcast_S_S100000x256 (constant S_ .f32 0x00000000#32))
      (broadcastInDim S640000x1 ![0] bcast_S640000_S640000x1_0 dst)
      (Host.gather gather_S100000x256_S640000x1_S640000x256_1_0_n_n_0_1_1256 x
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 100000#32))) src))))
    (broadcastInDim S100000x256 ![0, 1] bcast_S100000x1_S100000x256_0_1
      (broadcastInDim S100000x1 ![0] bcast_S100000_S100000x1_0
        (maximumf
          (Host.scatterAdd scatter_S100000_S640000x1_S640000_n_0_0_1
            (broadcastInDim S100000 ![] bcast_S_S100000 (constant S_ .f32 0x00000000#32))
            (broadcastInDim S640000x1 ![0] bcast_S640000_S640000x1_0 dst)
            (broadcastInDim S640000 ![] bcast_S_S640000 (constant S_ .f32 0x3F800000#32)))
          (broadcastInDim S100000 ![] bcast_S_S100000 (constant S_ .f32 0x3F800000#32)))))

variable (W : Valuation τ sig (Elt F))

attribute [local irreducible] Host.gather Host.scatterAdd

/-! ## The stretch before the first launch -/

theorem host0_v18 : after hostOps0 W (Proc.devRef .tc main_v18)
    = mean128 (W (Proc.devRef .tc main_arg0)) (W (Proc.devRef .tc main_arg1)) (W (Proc.devRef .tc main_arg2)) := by
  after_results_simp
  rfl

theorem host0_v37 : after hostOps0 W (Proc.devRef .tc main_v37)
    = mean128 (W (Proc.devRef .tc main_arg0)) (W (Proc.devRef .tc main_arg3)) (W (Proc.devRef .tc main_arg4)) := by
  after_results_simp
  rfl

theorem host0_arg0 : after hostOps0 W (Proc.devRef .tc main_arg0) = W (Proc.devRef .tc main_arg0) := by
  after_results_simp
theorem host0_arg1 : after hostOps0 W (Proc.devRef .tc main_arg1) = W (Proc.devRef .tc main_arg1) := by
  after_results_simp
theorem host0_arg2 : after hostOps0 W (Proc.devRef .tc main_arg2) = W (Proc.devRef .tc main_arg2) := by
  after_results_simp
theorem host0_arg3 : after hostOps0 W (Proc.devRef .tc main_arg3) = W (Proc.devRef .tc main_arg3) := by
  after_results_simp
theorem host0_arg4 : after hostOps0 W (Proc.devRef .tc main_arg4) = W (Proc.devRef .tc main_arg4) := by
  after_results_simp

/-! ## The stretch between the two launches -/

theorem host1_v57 : after hostOps1 W (Proc.devRef .tc main_v57)
    = mean256 (W (Proc.devRef .tc main_v38)) (W (Proc.devRef .tc main_arg1)) (W (Proc.devRef .tc main_arg2)) := by
  after_results_simp
  rfl

theorem host1_v76 : after hostOps1 W (Proc.devRef .tc main_v76)
    = mean256 (W (Proc.devRef .tc main_v38)) (W (Proc.devRef .tc main_arg3)) (W (Proc.devRef .tc main_arg4)) := by
  after_results_simp
  rfl

theorem host1_v38 : after hostOps1 W (Proc.devRef .tc main_v38) = W (Proc.devRef .tc main_v38) := by
  after_results_simp

end Cert.KernelIdeal.HostChain

end
-- ==== Proof.Spec.lean ====
/-
  What one layer computes, as ONE function of the index.

  A layer takes a node-feature array `x` of `R` rows and `D` columns and two neighbour-mean arrays `m1`, `m2` of the same
  shape (one per edge set), and produces an array of `R` rows and `2 D` columns: columns `0 … D-1` hold the leaky ReLU of
  `x + m1`, columns `D … 2D-1` the leaky ReLU of `x + m2`, entry by entry. The leaky ReLU with slope `a` is
  `s ↦ s` where `s ≥ 0` and `s ↦ a · s` elsewhere; the slope is the single-precision number nearest to 1/100, the same
  word in both programs, so it is never evaluated. Everything here holds for any reading of the float operations.
-/
import Idealize.ShloMosaic.PureOps
import Idealize.ShloMosaic.Lib.ValueIdx
import Idealize.ShloMosaic.Lib.Pipeline.Value

noncomputable section

namespace Cert.Spec

open Idealize.ShloMosaic Idealize.ShloMosaic.ValueIdx

variable {F : FTy → Type} [FloatOps F]

/-- The leaky ReLU on one number: `s` where `s ≥ 0`, the slope times `s` elsewhere. -/
def leak (s : F .f32) : F .f32 :=
  Scalar.select (FloatOps.cmpf .oge s (FloatOps.ofBits .f32 0x00000000#32)) s
    (FloatOps.mulf (FloatOps.ofBits .f32 0x3C23D70A#32) s)

/-- One layer's result: the left half is `leak (x + m1)`, the right half `leak (x + m2)`, read at the same row and at the
    column inside the half. `E` is the result's width, `E = D + D`. -/
def combine {R D E : Nat} (hE : E = D + D) (x m1 m2 : (⟨2, ![R, D]⟩ : Shape).Idx → F .f32) :
    (⟨2, ![R, E]⟩ : Shape).Idx → F .f32 := fun i =>
  if h : (i 1).val < D then
    leak (FloatOps.addf (x (ix2 ⟨(i 0).val, (i 0).isLt⟩ ⟨(i 1).val, h⟩)) (m1 (ix2 ⟨(i 0).val, (i 0).isLt⟩ ⟨(i 1).val, h⟩)))
  else
    leak (FloatOps.addf (x (ix2 ⟨(i 0).val, (i 0).isLt⟩ ⟨(i 1).val - D, by have := (i 1).isLt; change (i 1).val < E at this; omega⟩))
      (m2 (ix2 ⟨(i 0).val, (i 0).isLt⟩ ⟨(i 1).val - D, by have := (i 1).isLt; change (i 1).val < E at this; omega⟩)))

end Cert.Spec

end
-- ==== Proof.Region0.lean ====
/-
  From the kernel's blocks to the whole array, for the first of the program's two layers.

  The layer's grid has 50 points; point `t` works on rows `2000 t … 2000 t + 1999`. At a point the body reads the three
  input blocks `x`, `m1`, `m2` (2000 rows, 128 columns each) and writes a block of 2000 rows and 256 columns by two stores:
  the left half (columns `0 … 127`) holds the leaky ReLU of `x + m1`, the right half (columns `128 … 255`) the leaky ReLU
  of `x + m2`. Three steps:

  1. BLOCK LEVEL. What the two stores leave in the output block is `Cert.Spec.combine` of the three input blocks: each
     store's payload, at its local index, is that one function at the index the store's rectangle places it at (row
     kept, column kept for the left half and shifted by 128 for the right half), and the two halves cover the block.
  2. ONE POINT. Block `t` of `combine` of the three whole arrays is `combine` of the arrays' blocks `t`: entry `(p, q)`
     of a block is entry `(2000 t + p, q)` of its array for all four windows, and `combine` reads its inputs at the
     same row and at the column inside the half, so the row offset passes through.
  3. ALL POINTS. Row `r` of the output array lies in the block of point `r / 2000`; every point writes its block back;
     so the array ends holding `combine` of the three input arrays.

  Everything holds for any reading of the float operations: no arithmetic is evaluated.
-/
import proofs.«168979_j72112500899859_1_alg».proof.Proof.Gen.KernelIdeal.Frame
import proofs.«168979_j72112500899859_1_alg».proof.Proof.Spec
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-! ## Indices and `combine` read at an index -/

/-- The zero offsets of a whole-block access, as the constant function. -/
private theorem hz : (![0, 0] : Fin 2 → Nat) = fun _ => 0 := funext fun a => by fin_cases a <;> rfl

/-- A rank-2 index is determined by the values of its two coordinates. -/
private theorem ix2_eq {n0 n1 : Nat} (x : (⟨2, ![n0, n1]⟩ : Shape).Idx) (a : Fin n0) (b : Fin n1)
    (h0 : a.val = (x 0).val) (h1 : b.val = (x 1).val) : ix2 a b = x := by
  funext d; match d with | ⟨0, _⟩ => exact Fin.ext h0 | ⟨1, _⟩ => exact Fin.ext h1

/-- `combine` at an index `i` of the LEFT half (column below `D`) is the leaky ReLU of `x + m1` at the input index `k`
    with the same row and the same column. -/
private theorem combine_left {R D E : Nat} (hE : E = D + D) (x m1 m2 : (⟨2, ![R, D]⟩ : Shape).Idx → F .f32)
    (i : (⟨2, ![R, E]⟩ : Shape).Idx) (k : (⟨2, ![R, D]⟩ : Shape).Idx)
    (h0 : (i 0).val = (k 0).val) (h1 : (i 1).val = (k 1).val) :
    Cert.Spec.combine hE x m1 m2 i = Cert.Spec.leak (FloatOps.addf (x k) (m1 k)) := by
  have hk1 : (k 1).val < D := (k 1).isLt
  have hn : (i 1).val < D := by omega
  unfold Cert.Spec.combine
  rw [dif_pos hn]
  have e : ix2 (⟨(i 0).val, (i 0).isLt⟩ : Fin R) (⟨(i 1).val, hn⟩ : Fin D) = k := ix2_eq k _ _ h0 h1
  rw [e]

/-- `combine` at an index `i` of the RIGHT half (column `D` or above) is the leaky ReLU of `x + m2` at the input index
    `k` with the same row and the column less `D`. -/
private theorem combine_right {R D E : Nat} (hE : E = D + D) (x m1 m2 : (⟨2, ![R, D]⟩ : Shape).Idx → F .f32)
    (i : (⟨2, ![R, E]⟩ : Shape).Idx) (k : (⟨2, ![R, D]⟩ : Shape).Idx)
    (h0 : (i 0).val = (k 0).val) (h1 : (i 1).val = D + (k 1).val) :
    Cert.Spec.combine hE x m1 m2 i = Cert.Spec.leak (FloatOps.addf (x k) (m2 k)) := by
  have hk1 : (k 1).val < D := (k 1).isLt
  have hn : ¬ (i 1).val < D := by omega
  have hlt : (i 1).val - D < D := by omega
  unfold Cert.Spec.combine
  rw [dif_neg hn]
  have e : ix2 (⟨(i 0).val, (i 0).isLt⟩ : Fin R) (⟨(i 1).val - D, hlt⟩ : Fin D) = k :=
    ix2_eq k _ _ h0 (by show (i 1).val - D = (k 1).val; omega)
  rw [e]

/-! ## Step 1: the output block after the body -/

/-- The left store's payload, entry by entry: the leaky ReLU of the sum of the two loaded blocks (a cast to the same
    shape is the identity; the sum, the comparison with zero, the product with the slope and the selection are all
    entry by entry, the two constants the same number at every entry). -/
theorem pay0_left_apply (v0 v1 : Vec F S2000x128 .f32) (y : S2000x128.Idx) :
    Gen.k0_pay1 v0 v1 y = Cert.Spec.leak (FloatOps.addf (v0 y) (v1 y)) := by
  unfold Gen.k0_pay1; simp only [shapeCast_self]; rfl

/-- The right store's payload, entry by entry: the same function of its two loaded blocks. -/
theorem pay0_right_apply (v0 v1 : Vec F S2000x128 .f32) (y : S2000x128.Idx) :
    Gen.k0_pay2 v0 v1 y = Cert.Spec.leak (FloatOps.addf (v0 y) (v1 y)) := by
  unfold Gen.k0_pay2; simp only [shapeCast_self]; rfl

/-- What the body leaves in the output block is `combine` of the three input blocks. The two stores are the restrictions
    of that one function to the right and the left half: local index `(p, q)` of the right half sits at `(p, 128 + q)` of the
    block and reads `x`, `m2` at `(p, q)`; local index `(p, q)` of the left half sits at `(p, q)` and reads `x`, `m1` there. The
    halves cover the block, so the block is the function everywhere. -/
theorem out0_3_eq (x0 x1 x2 : Vec F S2000x128 .f32) :
    Gen.out0_3 x0 x1 x2 = Cert.Spec.combine (R := 2000) (D := 128) (E := 256) rfl x0 x1 x2 := by
  funext y
  unfold Gen.out0_3
  simp only [View.ld_unit_zero (S := S2000x128) hz]
  refine View.canon_apply_of_pieces (Cert.Spec.combine (R := 2000) (D := 128) (E := 256) rfl x0 x1 x2) _ ?_ y (Gen.cover0_3 _ _ y)
  intro p hp x
  simp only [List.mem_cons, List.mem_singleton, List.not_mem_nil, or_false] at hp
  rcases hp with rfl | rfl
  · show Gen.k0_pay2 x0 x2 x = _
    rw [pay0_right_apply]
    refine (combine_right rfl x0 x1 x2 _ x ?_ ?_).symm
    · show 0 + 1 * (x 0).val = (x 0).val; omega
    · show 128 + 1 * (x 1).val = 128 + (x 1).val; omega
  · show Gen.k0_pay1 x0 x1 x = _
    rw [pay0_left_apply]
    refine (combine_left rfl x0 x1 x2 _ x ?_ ?_).symm
    · show 0 + 1 * (x 0).val = (x 0).val; omega
    · show 0 + 1 * (x 1).val = (x 1).val; omega

/-! ## Step 2: one point's block of the whole-array function -/

-- the contents of the buffers when the layer starts: a variable throughout
variable (V : (c : Dev nD) → (b : Ref sig .tc) → Buf (Elt F) ((c : Thread nD τ).loc b))

/-- The four index maps, decided over the 50 points: at point `t` every window's row block index is `t` and its column
    block index is zero. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Input block `t` of window 0, entry `(p, q)`, is the array's entry `(2000·t + p, q)`: the block's row index is the
    point and its column index is zero, and a block's coordinate on an axis is its index times the block's extent there
    plus the coordinate inside the block. -/
theorem iblk0_0_apply (c : Dev nD) (t : Fin cfg0.N) (k : S2000x128.Idx) (K : S100000x128.Idx)
    (h0 : (K 0).val = t.val * 2000 + (k 0).val) (h1 : (K 1).val = (k 1).val) :
    (Gen.iblk0 V c 0 t : Vec F S2000x128 .f32) k = (V c main_arg0 : S100000x128.Idx → Elt F .f32) K := by
  have e0 : win0_0.index t (0 : Fin 2) = t.val := (idx_facts0 t).1
  have e1 : win0_0.index t (1 : Fin 2) = 0 := (idx_facts0 t).2.1
  unfold Gen.iblk0
  rw [View.read_apply]
  show (V c main_arg0 : S100000x128.Idx → Elt F .f32) _ = (V c main_arg0 : S100000x128.Idx → Elt F .f32) _
  congr 1
  funext a
  apply Fin.ext
  match a with
  | ⟨0, _⟩ => show win0_0.index t (0 : Fin 2) * 2000 + 1 * (k 0).val = (K 0).val; rw [e0, h0]; omega
  | ⟨1, _⟩ => show win0_0.index t (1 : Fin 2) * 128 + 1 * (k 1).val = (K 1).val; rw [e1, h1]; omega

/-- Input block `t` of window 1, entry `(p, q)`, is the array's entry `(2000·t + p, q)`: the block's row index is the
    point and its column index is zero, and a block's coordinate on an axis is its index times the block's extent there
    plus the coordinate inside the block. -/
theorem iblk0_1_apply (c : Dev nD) (t : Fin cfg0.N) (k : S2000x128.Idx) (K : S100000x128.Idx)
    (h0 : (K 0).val = t.val * 2000 + (k 0).val) (h1 : (K 1).val = (k 1).val) :
    (Gen.iblk0 V c 1 t : Vec F S2000x128 .f32) k = (V c main_v18 : S100000x128.Idx → Elt F .f32) K := by
  have e0 : win0_1.index t (0 : Fin 2) = t.val := (idx_facts0 t).2.2.1
  have e1 : win0_1.index t (1 : Fin 2) = 0 := (idx_facts0 t).2.2.2.1
  unfold Gen.iblk0
  rw [View.read_apply]
  show (V c main_v18 : S100000x128.Idx → Elt F .f32) _ = (V c main_v18 : S100000x128.Idx → Elt F .f32) _
  congr 1
  funext a
  apply Fin.ext
  match a with
  | ⟨0, _⟩ => show win0_1.index t (0 : Fin 2) * 2000 + 1 * (k 0).val = (K 0).val; rw [e0, h0]; omega
  | ⟨1, _⟩ => show win0_1.index t (1 : Fin 2) * 128 + 1 * (k 1).val = (K 1).val; rw [e1, h1]; omega

/-- Input block `t` of window 2, entry `(p, q)`, is the array's entry `(2000·t + p, q)`: the block's row index is the
    point and its column index is zero, and a block's coordinate on an axis is its index times the block's extent there
    plus the coordinate inside the block. -/
theorem iblk0_2_apply (c : Dev nD) (t : Fin cfg0.N) (k : S2000x128.Idx) (K : S100000x128.Idx)
    (h0 : (K 0).val = t.val * 2000 + (k 0).val) (h1 : (K 1).val = (k 1).val) :
    (Gen.iblk0 V c 2 t : Vec F S2000x128 .f32) k = (V c main_v37 : S100000x128.Idx → Elt F .f32) K := by
  have e0 : win0_2.index t (0 : Fin 2) = t.val := (idx_facts0 t).2.2.2.2.1
  have e1 : win0_2.index t (1 : Fin 2) = 0 := (idx_facts0 t).2.2.2.2.2.1
  unfold Gen.iblk0
  rw [View.read_apply]
  show (V c main_v37 : S100000x128.Idx → Elt F .f32) _ = (V c main_v37 : S100000x128.Idx → Elt F .f32) _
  congr 1
  funext a
  apply Fin.ext
  match a with
  | ⟨0, _⟩ => show win0_2.index t (0 : Fin 2) * 2000 + 1 * (k 0).val = (K 0).val; rw [e0, h0]; omega
  | ⟨1, _⟩ => show win0_2.index t (1 : Fin 2) * 128 + 1 * (k 1).val = (K 1).val; rw [e1, h1]; omega

/-- `combine` of the three input blocks of point `t` at `(p, q)` is `combine` of the three arrays at `(2000·t + p, q)`:
    in either half both sides read their inputs at the same row and at the column inside the half, and the blocks'
    entries are the arrays' entries 2000·t rows further down. -/
theorem block_combine0 (c : Dev nD) (t : Fin cfg0.N) (j : S2000x256.Idx) (J : S100000x256.Idx)
    (h0 : (J 0).val = t.val * 2000 + (j 0).val) (h1 : (J 1).val = (j 1).val) :
    Cert.Spec.combine (R := 2000) (D := 128) (E := 256) rfl (Gen.iblk0 V c 0 t : Vec F S2000x128 .f32)
        (Gen.iblk0 V c 1 t : Vec F S2000x128 .f32) (Gen.iblk0 V c 2 t : Vec F S2000x128 .f32) j
      = Cert.Spec.combine (R := 100000) (D := 128) (E := 256) rfl (V c main_arg0 : S100000x128.Idx → Elt F .f32)
        (V c main_v18 : S100000x128.Idx → Elt F .f32) (V c main_v37 : S100000x128.Idx → Elt F .f32) J := by
  have hj0 : (j 0).val < 2000 := (j 0).isLt
  have hj1 : (j 1).val < 256 := (j 1).isLt
  have hJ0 : (J 0).val < 100000 := (J 0).isLt
  by_cases h : (j 1).val < 128
  · have hJ1 : (J 1).val < 128 := by omega
    rw [combine_left rfl _ _ _ j (ix2 ⟨(j 0).val, hj0⟩ ⟨(j 1).val, h⟩) rfl rfl,
      combine_left rfl _ _ _ J (ix2 ⟨(J 0).val, hJ0⟩ ⟨(J 1).val, hJ1⟩) rfl rfl,
      iblk0_0_apply V c t _ (ix2 ⟨(J 0).val, hJ0⟩ ⟨(J 1).val, hJ1⟩) h0 h1,
      iblk0_1_apply V c t _ (ix2 ⟨(J 0).val, hJ0⟩ ⟨(J 1).val, hJ1⟩) h0 h1]
  · have hj1' : (j 1).val - 128 < 128 := by omega
    have hJ1 : (J 1).val - 128 < 128 := by omega
    have g1 : (J 1).val - 128 = (j 1).val - 128 := by omega
    rw [combine_right rfl _ _ _ j (ix2 ⟨(j 0).val, hj0⟩ ⟨(j 1).val - 128, hj1'⟩) rfl (by show (j 1).val = 128 + ((j 1).val - 128); omega),
      combine_right rfl _ _ _ J (ix2 ⟨(J 0).val, hJ0⟩ ⟨(J 1).val - 128, hJ1⟩) rfl (by show (J 1).val = 128 + ((J 1).val - 128); omega),
      iblk0_0_apply V c t _ (ix2 ⟨(J 0).val, hJ0⟩ ⟨(J 1).val - 128, hJ1⟩) h0 g1,
      iblk0_2_apply V c t _ (ix2 ⟨(J 0).val, hJ0⟩ ⟨(J 1).val - 128, hJ1⟩) h0 g1]

/-- WHAT POINT `t` WRITES BACK is block `t` of `combine` of the three arrays as the layer finds them: the body leaves
    `combine` of the input blocks (step 1), and entry `(p, q)` of the output block sits at `(2000·t + p, q)` of the output array. -/
theorem flushed0_eq (c : Dev nD) (t : Fin cfg0.N) :
    (Gen.dat0 V c).flushed 3 t = ((cfg0.win 3).blk t).view.read (Elt F)
      (Cert.Spec.combine (R := 100000) (D := 128) (E := 256) rfl (V c main_arg0) (V c main_v18) (V c main_v37)) := by
  show (cfg0.win 3).cut (grid0.coords t) ((Gen.dat0 V c).after 3 t) = _
  rw [Gen.after0_3, out0_3_eq]
  funext j
  show Cert.Spec.combine (R := 2000) (D := 128) (E := 256) rfl (Gen.iblk0 V c 0 t) (Gen.iblk0 V c 1 t) (Gen.iblk0 V c 2 t) j
     = Cert.Spec.combine (R := 100000) (D := 128) (E := 256) rfl (V c main_arg0) (V c main_v18) (V c main_v37) (((cfg0.win 3).blk t).view.emb j)
  have e6 : win0_3.index t (0 : Fin 2) = t.val := (idx_facts0 t).2.2.2.2.2.2.1
  have e7 : win0_3.index t (1 : Fin 2) = 0 := (idx_facts0 t).2.2.2.2.2.2.2
  refine block_combine0 V c t j _ ?_ ?_
  · show win0_3.index t (0 : Fin 2) * 2000 + 1 * (j 0).val = t.val * 2000 + (j 0).val; rw [e6]; omega
  · show win0_3.index t (1 : Fin 2) * 256 + 1 * (j 1).val = (j 1).val; rw [e7]; omega

/-! ## Step 3: the blocks cover the array -/

/-- An index of the output array is in point `t`'s block iff each coordinate is in the block's range on its axis. -/
theorem mem_blk0 (t : Fin cfg0.N) (i : S100000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v38).slice (win0_3.rect t)).set ↔ _
  rw [View.set_slice_whole, Rect.mem_set_unit]
  exact Iff.rfl

/-- Every index of the output array is in the block of a point that writes back: row `r` is in the block of point
    `r / 2000` (rows `2000·(r / 2000) … 2000·(r / 2000) + 1999`; there are 100000 = 50 · 2000 rows), and that block spans
    all 256 columns. -/
theorem cover0 (i : S100000x256.Idx) :
    ∃ t : Fin cfg0.N, (cfg0.win 3).flush t = true ∧ i ∈ ((cfg0.win 3).blk t).view.set := by
  have hi0 : (i 0).val < 100000 := (i 0).isLt
  have hi1 : (i 1).val < 256 := (i 1).isLt
  have hN : cfg0.N = 50 := Gen.N_0
  obtain ⟨t, ht⟩ : ∃ t : Fin cfg0.N, t.val = (i 0).val / 2000 := ⟨⟨(i 0).val / 2000, by rw [hN]; omega⟩, rfl⟩
  have e6 : win0_3.index t (0 : Fin 2) = t.val := (idx_facts0 t).2.2.2.2.2.2.1
  have e7 : win0_3.index t (1 : Fin 2) = 0 := (idx_facts0 t).2.2.2.2.2.2.2
  refine ⟨t, Gen.flush0_3 t, ?_⟩
  rw [mem_blk0]
  intro a
  match a with
  | ⟨0, _⟩ => show win0_3.index t (0 : Fin 2) * 2000 ≤ (i 0).val ∧ (i 0).val < win0_3.index t (0 : Fin 2) * 2000 + 2000; rw [e6, ht]; omega
  | ⟨1, _⟩ => show win0_3.index t (1 : Fin 2) * 256 ≤ (i 1).val ∧ (i 1).val < win0_3.index t (1 : Fin 2) * 256 + 256; rw [e7]; omega

/-- THE OUTPUT ARRAY after the layer's 50 points is `combine` of the three input arrays as the layer finds them. -/
theorem final0 (c : Dev nD) :
    (Gen.dat0 V c).arrAt 3 cfg0.N = Cert.Spec.combine (R := 100000) (D := 128) (E := 256) rfl (V c main_arg0) (V c main_v18) (V c main_v37) :=
  (Gen.dat0 V c).arrAt_eq_of_cover 3 _ (fun t _ => flushed0_eq V c t) cover0

end Cert.KernelIdeal.Regions

end
-- ==== Proof.Region1.lean ====
/-
  From the kernel's blocks to the whole array, for the second of the program's two layers.

  The layer's grid has 50 points; point `t` works on rows `2000 t … 2000 t + 1999`. At a point the body reads the three
  input blocks `x`, `m1`, `m2` (2000 rows, 256 columns each) and writes a block of 2000 rows and 512 columns by two stores:
  the left half (columns `0 … 255`) holds the leaky ReLU of `x + m1`, the right half (columns `256 … 511`) the leaky ReLU
  of `x + m2`. Three steps:

  1. BLOCK LEVEL. What the two stores leave in the output block is `Cert.Spec.combine` of the three input blocks: each
     store's payload, at its local index, is that one function at the index the store's rectangle places it at (row
     kept, column kept for the left half and shifted by 256 for the right half), and the two halves cover the block.
  2. ONE POINT. Block `t` of `combine` of the three whole arrays is `combine` of the arrays' blocks `t`: entry `(p, q)`
     of a block is entry `(2000 t + p, q)` of its array for all four windows, and `combine` reads its inputs at the
     same row and at the column inside the half, so the row offset passes through.
  3. ALL POINTS. Row `r` of the output array lies in the block of point `r / 2000`; every point writes its block back;
     so the array ends holding `combine` of the three input arrays.

  Everything holds for any reading of the float operations: no arithmetic is evaluated.
-/
import proofs.«168979_j72112500899859_1_alg».proof.Proof.Gen.KernelIdeal.Frame
import proofs.«168979_j72112500899859_1_alg».proof.Proof.Spec
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-! ## Indices and `combine` read at an index -/

/-- The zero offsets of a whole-block access, as the constant function. -/
private theorem hz : (![0, 0] : Fin 2 → Nat) = fun _ => 0 := funext fun a => by fin_cases a <;> rfl

/-- A rank-2 index is determined by the values of its two coordinates. -/
private theorem ix2_eq {n0 n1 : Nat} (x : (⟨2, ![n0, n1]⟩ : Shape).Idx) (a : Fin n0) (b : Fin n1)
    (h0 : a.val = (x 0).val) (h1 : b.val = (x 1).val) : ix2 a b = x := by
  funext d; match d with | ⟨0, _⟩ => exact Fin.ext h0 | ⟨1, _⟩ => exact Fin.ext h1

/-- `combine` at an index `i` of the LEFT half (column below `D`) is the leaky ReLU of `x + m1` at the input index `k`
    with the same row and the same column. -/
private theorem combine_left {R D E : Nat} (hE : E = D + D) (x m1 m2 : (⟨2, ![R, D]⟩ : Shape).Idx → F .f32)
    (i : (⟨2, ![R, E]⟩ : Shape).Idx) (k : (⟨2, ![R, D]⟩ : Shape).Idx)
    (h0 : (i 0).val = (k 0).val) (h1 : (i 1).val = (k 1).val) :
    Cert.Spec.combine hE x m1 m2 i = Cert.Spec.leak (FloatOps.addf (x k) (m1 k)) := by
  have hk1 : (k 1).val < D := (k 1).isLt
  have hn : (i 1).val < D := by omega
  unfold Cert.Spec.combine
  rw [dif_pos hn]
  have e : ix2 (⟨(i 0).val, (i 0).isLt⟩ : Fin R) (⟨(i 1).val, hn⟩ : Fin D) = k := ix2_eq k _ _ h0 h1
  rw [e]

/-- `combine` at an index `i` of the RIGHT half (column `D` or above) is the leaky ReLU of `x + m2` at the input index
    `k` with the same row and the column less `D`. -/
private theorem combine_right {R D E : Nat} (hE : E = D + D) (x m1 m2 : (⟨2, ![R, D]⟩ : Shape).Idx → F .f32)
    (i : (⟨2, ![R, E]⟩ : Shape).Idx) (k : (⟨2, ![R, D]⟩ : Shape).Idx)
    (h0 : (i 0).val = (k 0).val) (h1 : (i 1).val = D + (k 1).val) :
    Cert.Spec.combine hE x m1 m2 i = Cert.Spec.leak (FloatOps.addf (x k) (m2 k)) := by
  have hk1 : (k 1).val < D := (k 1).isLt
  have hn : ¬ (i 1).val < D := by omega
  have hlt : (i 1).val - D < D := by omega
  unfold Cert.Spec.combine
  rw [dif_neg hn]
  have e : ix2 (⟨(i 0).val, (i 0).isLt⟩ : Fin R) (⟨(i 1).val - D, hlt⟩ : Fin D) = k :=
    ix2_eq k _ _ h0 (by show (i 1).val - D = (k 1).val; omega)
  rw [e]

/-! ## Step 1: the output block after the body -/

/-- The left store's payload, entry by entry: the leaky ReLU of the sum of the two loaded blocks (a cast to the same
    shape is the identity; the sum, the comparison with zero, the product with the slope and the selection are all
    entry by entry, the two constants the same number at every entry). -/
theorem pay1_left_apply (v0 v1 : Vec F S2000x256 .f32) (y : S2000x256.Idx) :
    Gen.k1_pay2 v0 v1 y = Cert.Spec.leak (FloatOps.addf (v0 y) (v1 y)) := by
  unfold Gen.k1_pay2 Gen.k1_pay1; simp only [shapeCast_self]; rfl

/-- The right store's payload, entry by entry: the same function of its two loaded blocks. -/
theorem pay1_right_apply (v0 v1 : Vec F S2000x256 .f32) (y : S2000x256.Idx) :
    Gen.k1_pay3 v0 v1 y = Cert.Spec.leak (FloatOps.addf (v0 y) (v1 y)) := by
  unfold Gen.k1_pay3 Gen.k1_pay1; simp only [shapeCast_self]; rfl

/-- What the body leaves in the output block is `combine` of the three input blocks. The two stores are the restrictions
    of that one function to the right and the left half: local index `(p, q)` of the right half sits at `(p, 256 + q)` of the
    block and reads `x`, `m2` at `(p, q)`; local index `(p, q)` of the left half sits at `(p, q)` and reads `x`, `m1` there. The
    halves cover the block, so the block is the function everywhere. -/
theorem out1_3_eq (x0 x1 x2 : Vec F S2000x256 .f32) :
    Gen.out1_3 x0 x1 x2 = Cert.Spec.combine (R := 2000) (D := 256) (E := 512) rfl x0 x1 x2 := by
  funext y
  unfold Gen.out1_3
  simp only [View.ld_unit_zero (S := S2000x256) hz]
  refine View.canon_apply_of_pieces (Cert.Spec.combine (R := 2000) (D := 256) (E := 512) rfl x0 x1 x2) _ ?_ y (Gen.cover1_3 _ _ y)
  intro p hp x
  simp only [List.mem_cons, List.mem_singleton, List.not_mem_nil, or_false] at hp
  rcases hp with rfl | rfl
  · show Gen.k1_pay3 x0 x2 x = _
    rw [pay1_right_apply]
    refine (combine_right rfl x0 x1 x2 _ x ?_ ?_).symm
    · show 0 + 1 * (x 0).val = (x 0).val; omega
    · show 256 + 1 * (x 1).val = 256 + (x 1).val; omega
  · show Gen.k1_pay2 x0 x1 x = _
    rw [pay1_left_apply]
    refine (combine_left rfl x0 x1 x2 _ x ?_ ?_).symm
    · show 0 + 1 * (x 0).val = (x 0).val; omega
    · show 0 + 1 * (x 1).val = (x 1).val; omega

/-! ## Step 2: one point's block of the whole-array function -/

-- the contents of the buffers when the layer starts: a variable throughout
variable (V : (c : Dev nD) → (b : Ref sig .tc) → Buf (Elt F) ((c : Thread nD τ).loc b))

/-- The four index maps, decided over the 50 points: at point `t` every window's row block index is `t` and its column
    block index is zero. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Input block `t` of window 0, entry `(p, q)`, is the array's entry `(2000·t + p, q)`: the block's row index is the
    point and its column index is zero, and a block's coordinate on an axis is its index times the block's extent there
    plus the coordinate inside the block. -/
theorem iblk1_0_apply (c : Dev nD) (t : Fin cfg1.N) (k : S2000x256.Idx) (K : S100000x256.Idx)
    (h0 : (K 0).val = t.val * 2000 + (k 0).val) (h1 : (K 1).val = (k 1).val) :
    (Gen.iblk1 V c 0 t : Vec F S2000x256 .f32) k = (V c main_v38 : S100000x256.Idx → Elt F .f32) K := by
  have e0 : win1_0.index t (0 : Fin 2) = t.val := (idx_facts1 t).1
  have e1 : win1_0.index t (1 : Fin 2) = 0 := (idx_facts1 t).2.1
  unfold Gen.iblk1
  rw [View.read_apply]
  show (V c main_v38 : S100000x256.Idx → Elt F .f32) _ = (V c main_v38 : S100000x256.Idx → Elt F .f32) _
  congr 1
  funext a
  apply Fin.ext
  match a with
  | ⟨0, _⟩ => show win1_0.index t (0 : Fin 2) * 2000 + 1 * (k 0).val = (K 0).val; rw [e0, h0]; omega
  | ⟨1, _⟩ => show win1_0.index t (1 : Fin 2) * 256 + 1 * (k 1).val = (K 1).val; rw [e1, h1]; omega

/-- Input block `t` of window 1, entry `(p, q)`, is the array's entry `(2000·t + p, q)`: the block's row index is the
    point and its column index is zero, and a block's coordinate on an axis is its index times the block's extent there
    plus the coordinate inside the block. -/
theorem iblk1_1_apply (c : Dev nD) (t : Fin cfg1.N) (k : S2000x256.Idx) (K : S100000x256.Idx)
    (h0 : (K 0).val = t.val * 2000 + (k 0).val) (h1 : (K 1).val = (k 1).val) :
    (Gen.iblk1 V c 1 t : Vec F S2000x256 .f32) k = (V c main_v57 : S100000x256.Idx → Elt F .f32) K := by
  have e0 : win1_1.index t (0 : Fin 2) = t.val := (idx_facts1 t).2.2.1
  have e1 : win1_1.index t (1 : Fin 2) = 0 := (idx_facts1 t).2.2.2.1
  unfold Gen.iblk1
  rw [View.read_apply]
  show (V c main_v57 : S100000x256.Idx → Elt F .f32) _ = (V c main_v57 : S100000x256.Idx → Elt F .f32) _
  congr 1
  funext a
  apply Fin.ext
  match a with
  | ⟨0, _⟩ => show win1_1.index t (0 : Fin 2) * 2000 + 1 * (k 0).val = (K 0).val; rw [e0, h0]; omega
  | ⟨1, _⟩ => show win1_1.index t (1 : Fin 2) * 256 + 1 * (k 1).val = (K 1).val; rw [e1, h1]; omega

/-- Input block `t` of window 2, entry `(p, q)`, is the array's entry `(2000·t + p, q)`: the block's row index is the
    point and its column index is zero, and a block's coordinate on an axis is its index times the block's extent there
    plus the coordinate inside the block. -/
theorem iblk1_2_apply (c : Dev nD) (t : Fin cfg1.N) (k : S2000x256.Idx) (K : S100000x256.Idx)
    (h0 : (K 0).val = t.val * 2000 + (k 0).val) (h1 : (K 1).val = (k 1).val) :
    (Gen.iblk1 V c 2 t : Vec F S2000x256 .f32) k = (V c main_v76 : S100000x256.Idx → Elt F .f32) K := by
  have e0 : win1_2.index t (0 : Fin 2) = t.val := (idx_facts1 t).2.2.2.2.1
  have e1 : win1_2.index t (1 : Fin 2) = 0 := (idx_facts1 t).2.2.2.2.2.1
  unfold Gen.iblk1
  rw [View.read_apply]
  show (V c main_v76 : S100000x256.Idx → Elt F .f32) _ = (V c main_v76 : S100000x256.Idx → Elt F .f32) _
  congr 1
  funext a
  apply Fin.ext
  match a with
  | ⟨0, _⟩ => show win1_2.index t (0 : Fin 2) * 2000 + 1 * (k 0).val = (K 0).val; rw [e0, h0]; omega
  | ⟨1, _⟩ => show win1_2.index t (1 : Fin 2) * 256 + 1 * (k 1).val = (K 1).val; rw [e1, h1]; omega

/-- `combine` of the three input blocks of point `t` at `(p, q)` is `combine` of the three arrays at `(2000·t + p, q)`:
    in either half both sides read their inputs at the same row and at the column inside the half, and the blocks'
    entries are the arrays' entries 2000·t rows further down. -/
theorem block_combine1 (c : Dev nD) (t : Fin cfg1.N) (j : S2000x512.Idx) (J : S100000x512.Idx)
    (h0 : (J 0).val = t.val * 2000 + (j 0).val) (h1 : (J 1).val = (j 1).val) :
    Cert.Spec.combine (R := 2000) (D := 256) (E := 512) rfl (Gen.iblk1 V c 0 t : Vec F S2000x256 .f32)
        (Gen.iblk1 V c 1 t : Vec F S2000x256 .f32) (Gen.iblk1 V c 2 t : Vec F S2000x256 .f32) j
      = Cert.Spec.combine (R := 100000) (D := 256) (E := 512) rfl (V c main_v38 : S100000x256.Idx → Elt F .f32)
        (V c main_v57 : S100000x256.Idx → Elt F .f32) (V c main_v76 : S100000x256.Idx → Elt F .f32) J := by
  have hj0 : (j 0).val < 2000 := (j 0).isLt
  have hj1 : (j 1).val < 512 := (j 1).isLt
  have hJ0 : (J 0).val < 100000 := (J 0).isLt
  by_cases h : (j 1).val < 256
  · have hJ1 : (J 1).val < 256 := by omega
    rw [combine_left rfl _ _ _ j (ix2 ⟨(j 0).val, hj0⟩ ⟨(j 1).val, h⟩) rfl rfl,
      combine_left rfl _ _ _ J (ix2 ⟨(J 0).val, hJ0⟩ ⟨(J 1).val, hJ1⟩) rfl rfl,
      iblk1_0_apply V c t _ (ix2 ⟨(J 0).val, hJ0⟩ ⟨(J 1).val, hJ1⟩) h0 h1,
      iblk1_1_apply V c t _ (ix2 ⟨(J 0).val, hJ0⟩ ⟨(J 1).val, hJ1⟩) h0 h1]
  · have hj1' : (j 1).val - 256 < 256 := by omega
    have hJ1 : (J 1).val - 256 < 256 := by omega
    have g1 : (J 1).val - 256 = (j 1).val - 256 := by omega
    rw [combine_right rfl _ _ _ j (ix2 ⟨(j 0).val, hj0⟩ ⟨(j 1).val - 256, hj1'⟩) rfl (by show (j 1).val = 256 + ((j 1).val - 256); omega),
      combine_right rfl _ _ _ J (ix2 ⟨(J 0).val, hJ0⟩ ⟨(J 1).val - 256, hJ1⟩) rfl (by show (J 1).val = 256 + ((J 1).val - 256); omega),
      iblk1_0_apply V c t _ (ix2 ⟨(J 0).val, hJ0⟩ ⟨(J 1).val - 256, hJ1⟩) h0 g1,
      iblk1_2_apply V c t _ (ix2 ⟨(J 0).val, hJ0⟩ ⟨(J 1).val - 256, hJ1⟩) h0 g1]

/-- WHAT POINT `t` WRITES BACK is block `t` of `combine` of the three arrays as the layer finds them: the body leaves
    `combine` of the input blocks (step 1), and entry `(p, q)` of the output block sits at `(2000·t + p, q)` of the output array. -/
theorem flushed1_eq (c : Dev nD) (t : Fin cfg1.N) :
    (Gen.dat1 V c).flushed 3 t = ((cfg1.win 3).blk t).view.read (Elt F)
      (Cert.Spec.combine (R := 100000) (D := 256) (E := 512) rfl (V c main_v38) (V c main_v57) (V c main_v76)) := by
  show (cfg1.win 3).cut (grid1.coords t) ((Gen.dat1 V c).after 3 t) = _
  rw [Gen.after1_3, out1_3_eq]
  funext j
  show Cert.Spec.combine (R := 2000) (D := 256) (E := 512) rfl (Gen.iblk1 V c 0 t) (Gen.iblk1 V c 1 t) (Gen.iblk1 V c 2 t) j
     = Cert.Spec.combine (R := 100000) (D := 256) (E := 512) rfl (V c main_v38) (V c main_v57) (V c main_v76) (((cfg1.win 3).blk t).view.emb j)
  have e6 : win1_3.index t (0 : Fin 2) = t.val := (idx_facts1 t).2.2.2.2.2.2.1
  have e7 : win1_3.index t (1 : Fin 2) = 0 := (idx_facts1 t).2.2.2.2.2.2.2
  refine block_combine1 V c t j _ ?_ ?_
  · show win1_3.index t (0 : Fin 2) * 2000 + 1 * (j 0).val = t.val * 2000 + (j 0).val; rw [e6]; omega
  · show win1_3.index t (1 : Fin 2) * 512 + 1 * (j 1).val = (j 1).val; rw [e7]; omega

/-! ## Step 3: the blocks cover the array -/

/-- An index of the output array is in point `t`'s block iff each coordinate is in the block's range on its axis. -/
theorem mem_blk1 (t : Fin cfg1.N) (i : S100000x512.Idx) :
    i ∈ ((cfg1.win 3).blk t).view.set ↔ ∀ a : Fin 2, win1_3.index t a * S2000x512.size a ≤ (i a).val ∧ (i a).val < win1_3.index t a * S2000x512.size a + S2000x512.size a := by
  show i ∈ ((View.whole main_v77).slice (win1_3.rect t)).set ↔ _
  rw [View.set_slice_whole, Rect.mem_set_unit]
  exact Iff.rfl

/-- Every index of the output array is in the block of a point that writes back: row `r` is in the block of point
    `r / 2000` (rows `2000·(r / 2000) … 2000·(r / 2000) + 1999`; there are 100000 = 50 · 2000 rows), and that block spans
    all 512 columns. -/
theorem cover1 (i : S100000x512.Idx) :
    ∃ t : Fin cfg1.N, (cfg1.win 3).flush t = true ∧ i ∈ ((cfg1.win 3).blk t).view.set := by
  have hi0 : (i 0).val < 100000 := (i 0).isLt
  have hi1 : (i 1).val < 512 := (i 1).isLt
  have hN : cfg1.N = 50 := Gen.N_1
  obtain ⟨t, ht⟩ : ∃ t : Fin cfg1.N, t.val = (i 0).val / 2000 := ⟨⟨(i 0).val / 2000, by rw [hN]; omega⟩, rfl⟩
  have e6 : win1_3.index t (0 : Fin 2) = t.val := (idx_facts1 t).2.2.2.2.2.2.1
  have e7 : win1_3.index t (1 : Fin 2) = 0 := (idx_facts1 t).2.2.2.2.2.2.2
  refine ⟨t, Gen.flush1_3 t, ?_⟩
  rw [mem_blk1]
  intro a
  match a with
  | ⟨0, _⟩ => show win1_3.index t (0 : Fin 2) * 2000 ≤ (i 0).val ∧ (i 0).val < win1_3.index t (0 : Fin 2) * 2000 + 2000; rw [e6, ht]; omega
  | ⟨1, _⟩ => show win1_3.index t (1 : Fin 2) * 512 ≤ (i 1).val ∧ (i 1).val < win1_3.index t (1 : Fin 2) * 512 + 512; rw [e7]; omega

/-- THE OUTPUT ARRAY after the layer's 50 points is `combine` of the three input arrays as the layer finds them. -/
theorem final1 (c : Dev nD) :
    (Gen.dat1 V c).arrAt 3 cfg1.N = Cert.Spec.combine (R := 100000) (D := 256) (E := 512) rfl (V c main_v38) (V c main_v57) (V c main_v76) :=
  (Gen.dat1 V c).arrAt_eq_of_cover 3 _ (fun t _ => flushed1_eq V c t) cover1

end Cert.KernelIdeal.Regions

end
-- ==== Proof.KernelValue.lean ====
/-
  What the kernel program leaves in its result array, as one function of the five arguments.

  The fold of buffer contents through the program is read back to front. The result array is what the second launch's
  write-backs leave, and those assemble to one layer over the arrays the second launch is entered with: the first
  layer's output and the two means of it the second host stretch computes. The first layer's output in turn is what the
  first launch's write-backs leave: one layer over the launch's features and the two means the first host stretch
  computes. The index vectors are written by nobody, so both stretches read them as launched.
-/
import proofs.«168979_j72112500899859_1_alg».proof.Proof.RunNamed
import proofs.«168979_j72112500899859_1_alg».proof.Proof.HostChain
import proofs.«168979_j72112500899859_1_alg».proof.Proof.Region0
import proofs.«168979_j72112500899859_1_alg».proof.Proof.Region1
import proofs.«168979_j72112500899859_1_alg».proof.Proof.Spec

set_option maxRecDepth 16384

noncomputable section

namespace Cert.KernelIdeal.KernelValue

open Cert.KernelIdeal Cert.KernelIdeal.Gen Cert.KernelIdeal.HostChain Cert.Spec
open Idealize.ShloMosaic Idealize.ShloMosaic.TcCoe Idealize.SL.Sem Idealize.ShloMosaic.StableHlo

variable {F : FTy → Type} [FloatOps F]

/-- Two layers: the first over the features and their two neighbour means, the second over the first layer's output
    and its two neighbour means. `s1, d1` are the first edge set's source and destination indices, `s2, d2` the
    second's. -/
def kernelOut (x : FVec F S100000x128 .f32) (s1 d1 s2 d2 : IVec S640000 32) : FVec F S100000x512 .f32 :=
  combine (R := 100000) (D := 256) (E := 512) rfl
    (combine (R := 100000) (D := 128) (E := 256) rfl x (mean128 x s1 d1) (mean128 x s2 d2))
    (mean256 (combine (R := 100000) (D := 128) (E := 256) rfl x (mean128 x s1 d1) (mean128 x s2 d2)) s1 d1)
    (mean256 (combine (R := 100000) (D := 128) (E := 256) rfl x (mean128 x s1 d1) (mean128 x s2 d2)) s2 d2)

variable (m : (ℓ : Loc nD τ sig) → Buf (Elt F) ℓ) (ρ : Dev nD → PrngReg)

/-- After the first launch the first layer's output buffer holds one layer over the launch's arguments. -/
theorem first_layer (c : Dev nD) :
    W2 m ρ c (Proc.devRef .tc main_v38)
      = combine (R := 100000) (D := 128) (E := 256) rfl (m ((c : Thread nD τ).loc main_arg0))
          (mean128 (m ((c : Thread nD τ).loc main_arg0)) (m ((c : Thread nD τ).loc main_arg1)) (m ((c : Thread nD τ).loc main_arg2)))
          (mean128 (m ((c : Thread nD τ).loc main_arg0)) (m ((c : Thread nD τ).loc main_arg3)) (m ((c : Thread nD τ).loc main_arg4))) := by
  refine (W2_arr m ρ c 3).trans ?_
  refine (Cert.KernelIdeal.Regions.final0 (V1 m ρ) c).trans ?_
  show combine (R := 100000) (D := 128) (E := 256) rfl (after hostOps0 (W0 m ρ c) (Proc.devRef .tc main_arg0))
      (after hostOps0 (W0 m ρ c) (Proc.devRef .tc main_v18)) (after hostOps0 (W0 m ρ c) (Proc.devRef .tc main_v37)) = _
  rw [host0_arg0, host0_v18, host0_v37]

/-- The index vectors reach the second stretch as launched: the first stretch and the first launch write neither. -/
theorem idx_kept1 (c : Dev nD) : W2 m ρ c (Proc.devRef .tc main_arg1) = m ((c : Thread nD τ).loc main_arg1) :=
  (W2_of_ne m ρ c main_arg1 (by decide)).trans (host0_arg1 (W0 m ρ c))
theorem idx_kept2 (c : Dev nD) : W2 m ρ c (Proc.devRef .tc main_arg2) = m ((c : Thread nD τ).loc main_arg2) :=
  (W2_of_ne m ρ c main_arg2 (by decide)).trans (host0_arg2 (W0 m ρ c))
theorem idx_kept3 (c : Dev nD) : W2 m ρ c (Proc.devRef .tc main_arg3) = m ((c : Thread nD τ).loc main_arg3) :=
  (W2_of_ne m ρ c main_arg3 (by decide)).trans (host0_arg3 (W0 m ρ c))
theorem idx_kept4 (c : Dev nD) : W2 m ρ c (Proc.devRef .tc main_arg4) = m ((c : Thread nD τ).loc main_arg4) :=
  (W2_of_ne m ρ c main_arg4 (by decide)).trans (host0_arg4 (W0 m ρ c))

/-- The result array after the run is the two-layer function of the launch's arguments. -/
theorem result (c : Dev nD) :
    W4 m ρ c (Proc.devRef .tc main_v77)
      = kernelOut (m ((c : Thread nD τ).loc main_arg0)) (m ((c : Thread nD τ).loc main_arg1)) (m ((c : Thread nD τ).loc main_arg2))
          (m ((c : Thread nD τ).loc main_arg3)) (m ((c : Thread nD τ).loc main_arg4)) := by
  refine (W4_arr m ρ c 3).trans ?_
  refine (Cert.KernelIdeal.Regions.final1 (V3 m ρ) c).trans ?_
  show combine (R := 100000) (D := 256) (E := 512) rfl (after hostOps1 (W2 m ρ c) (Proc.devRef .tc main_v38))
      (after hostOps1 (W2 m ρ c) (Proc.devRef .tc main_v57)) (after hostOps1 (W2 m ρ c) (Proc.devRef .tc main_v76)) = _
  rw [host1_v38, host1_v57, host1_v76, first_layer, idx_kept1, idx_kept2, idx_kept3, idx_kept4]
  rfl

/-- The run of the kernel program with its result named as that function. -/
theorem run : θ_run defs (onTc (τ := τ) (main (F := F))) ⟨m, fun _ => 0, ρ⟩ (fun r => ∀ c : Dev nD,
      r.2.mem ((c.tc : Thread nD τ).loc main_v77)
        = kernelOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result m ρ c), (h c).2⟩) (Cert.KernelIdeal.RunNamed.run m ρ)

end Cert.KernelIdeal.KernelValue

end
-- ==== Proof.LibConcatHalves.lean ====
/-
  Two arrays of `R` rows and `D` columns laid side by side, read at an index.

  The concatenation along the columns of `a` and `b` has `D + D` columns; its entry at row `r` and column `q` is
  `a (r, q)` when `q < D` and `b (r, q - D)` otherwise. Any extents, any element type.
-/
import Idealize.ShloMosaic.PureOps
import Idealize.ShloMosaic.Lib.ValueIdx
import Idealize.ShloMosaic.Lib.Pipeline.Value

noncomputable section

namespace Cert.LibConcatHalves

open Idealize.ShloMosaic Idealize.ShloMosaic.ValueIdx

/-- The concatenation of two equal halves along the columns, at an index: the left half where the column is below
    `D`, the right half, `D` columns earlier, elsewhere. `E` is the result's width, `E = D + D`. -/
theorem concat_halves {α : Type} {R D E : Nat} (hE : E = D + D)
    (a b : (⟨2, ![R, D]⟩ : Shape).Idx → α)
    (h : Shape.Concatenates [(⟨2, ![R, D]⟩ : Shape), (⟨2, ![R, D]⟩ : Shape)] (⟨2, ![R, E]⟩ : Shape) (1 : Fin 2))
    (j : (⟨2, ![R, E]⟩ : Shape).Idx) :
    concatenate (⟨2, ![R, E]⟩ : Shape) (1 : Fin 2) [⟨(⟨2, ![R, D]⟩ : Shape), a⟩, ⟨(⟨2, ![R, D]⟩ : Shape), b⟩] h j
      = if hlt : (j 1).val < D then a (ix2 ⟨(j 0).val, (j 0).isLt⟩ ⟨(j 1).val, hlt⟩)
        else b (ix2 ⟨(j 0).val, (j 0).isLt⟩ ⟨(j 1).val - D, by have := (j 1).isLt; change (j 1).val < E at this; omega⟩) := by
  split
  · rename_i hlt
    exact concatenate_pair_apply_left (1 : Fin 2) a b h j rfl (ix2 ⟨(j 0).val, (j 0).isLt⟩ ⟨(j 1).val, hlt⟩)
      (fun d => by match d with | ⟨0, _⟩ => rfl | ⟨1, _⟩ => rfl)
  · rename_i hlt
    refine concatenate_pair_apply_right (1 : Fin 2) a b h j rfl rfl
      (ix2 ⟨(j 0).val, (j 0).isLt⟩ ⟨(j 1).val - D, by have := (j 1).isLt; change (j 1).val < E at this; omega⟩)
      (fun d hd => by
        match d with
        | ⟨0, _⟩ => rfl
        | ⟨1, _⟩ => exact absurd rfl hd) ?_
    show (j 1).val - D + D = (j 1).val
    omega

end Cert.LibConcatHalves

end
-- ==== Proof.Halves.lean ====
/-
  One layer in the host's spelling is the layer function of the specification.

  The host writes a layer as the concatenation, along the columns, of two halves, each the leaky ReLU of a sum written as
  a comparison with a broadcast zero, a product with the broadcast slope, and a select. Entry by entry that spelling is the
  scalar leaky ReLU of the sum's entry, and the concatenation reads the left half where the column is below `D` and
  the right half, `D` columns earlier, elsewhere: the layer function.
-/
import proofs.«168979_j72112500899859_1_alg».proof.Proof.Spec
import proofs.«168979_j72112500899859_1_alg».proof.Proof.LibConcatHalves

noncomputable section

namespace Cert.Spec

open Idealize.ShloMosaic Idealize.ShloMosaic.ValueIdx

variable {F : FTy → Type} [FloatOps F]

/-- The host's spelling of the leaky ReLU of a whole array: at every index it is the scalar leaky ReLU of the entry. -/
theorem leakyHost_apply {S S0 : Shape} (dims : Fin S0.rank → Fin S.rank) (hb : S0.BroadcastsInDim S dims)
    (s : S.Idx → F .f32) (i : S.Idx) :
    select (cmpf .oge s (broadcastInDim S dims hb (constant S0 .f32 0x00000000#32))) s
      (mulf (broadcastInDim S dims hb (id (constant S0 .f32 0x3C23D70A#32))) s) i = leak (s i) := rfl

/-- A layer in the host's spelling — the two halves, each the leaky ReLU of the features plus a mean, laid side by
    side — is the layer function of the specification. -/
theorem concat_leaky_eq_combine {R D E : Nat} (hE : E = D + D) {S0 : Shape}
    (dims : Fin S0.rank → Fin (⟨2, ![R, D]⟩ : Shape).rank) (hb : S0.BroadcastsInDim (⟨2, ![R, D]⟩ : Shape) dims)
    (x m1 m2 : (⟨2, ![R, D]⟩ : Shape).Idx → F .f32)
    (h : Shape.Concatenates [(⟨2, ![R, D]⟩ : Shape), (⟨2, ![R, D]⟩ : Shape)] (⟨2, ![R, E]⟩ : Shape) (1 : Fin 2)) :
    concatenate (⟨2, ![R, E]⟩ : Shape) (1 : Fin 2)
      [⟨(⟨2, ![R, D]⟩ : Shape),
          select (cmpf .oge (addf x m1) (broadcastInDim _ dims hb (constant S0 .f32 0x00000000#32))) (addf x m1)
            (mulf (broadcastInDim _ dims hb (id (constant S0 .f32 0x3C23D70A#32))) (addf x m1))⟩,
       ⟨(⟨2, ![R, D]⟩ : Shape),
          select (cmpf .oge (addf x m2) (broadcastInDim _ dims hb (constant S0 .f32 0x00000000#32))) (addf x m2)
            (mulf (broadcastInDim _ dims hb (id (constant S0 .f32 0x3C23D70A#32))) (addf x m2))⟩] h
      = combine hE x m1 m2 := by
  funext j
  rw [Cert.LibConcatHalves.concat_halves hE]
  unfold combine
  split
  · rfl
  · rfl

end Cert.Spec

end
-- ==== Proof.Bridge.lean ====
/-
  The reference's result and the kernel program's result are one function of the arguments.

  Both programs compute the neighbour means with the same host operations in the same order, so the two spellings of
  the mean are the same function. A layer in the reference is the concatenation, along the columns, of the leaky ReLU
  of the features plus each mean; a layer in the kernel program is the function that reads the left half as the leaky
  ReLU of the features plus the first mean and the right half as that of the features plus the second. These agree entry
  by entry, for each of the two layers; no property of the numbers is used.
-/
import proofs.«168979_j72112500899859_1_alg».proof.Proof.RefRun
import proofs.«168979_j72112500899859_1_alg».proof.Proof.KernelValue
import proofs.«168979_j72112500899859_1_alg».proof.Proof.Halves

set_option maxRecDepth 16384

noncomputable section

namespace Cert.Bridge

open Idealize.ShloMosaic Cert.Spec

variable {F : FTy → Type} [FloatOps F]

attribute [local irreducible] Host.gather Host.scatterAdd

/-- The two programs' mean of a 128-column array is one function: the same operations over the same records. -/
theorem mean128_eq (x : FVec F Cert.ReferenceIdeal.S100000x128 .f32) (s d : IVec Cert.ReferenceIdeal.S640000 32) :
    Cert.ReferenceIdeal.RefRun.mean128 x s d = Cert.KernelIdeal.HostChain.mean128 x s d := rfl

/-- Likewise for a 256-column array. -/
theorem mean256_eq (x : FVec F Cert.ReferenceIdeal.S100000x256 .f32) (s d : IVec Cert.ReferenceIdeal.S640000 32) :
    Cert.ReferenceIdeal.RefRun.mean256 x s d = Cert.KernelIdeal.HostChain.mean256 x s d := rfl

/-- The reference's first layer is the layer function over the features and their two means. -/
theorem layer128_eq (x : FVec F Cert.ReferenceIdeal.S100000x128 .f32) (s1 d1 s2 d2 : IVec Cert.ReferenceIdeal.S640000 32) :
    Cert.ReferenceIdeal.RefRun.layer128 x s1 d1 s2 d2
      = combine (R := 100000) (D := 128) (E := 256) rfl x (Cert.KernelIdeal.HostChain.mean128 x s1 d1)
          (Cert.KernelIdeal.HostChain.mean128 x s2 d2) := by
  unfold Cert.ReferenceIdeal.RefRun.layer128 Cert.ReferenceIdeal.RefRun.leaky128
  rw [mean128_eq, mean128_eq]
  exact concat_leaky_eq_combine (R := 100000) (D := 128) (E := 256) rfl _ _ x _ _ _

/-- The reference's second layer is the layer function over its input and that input's two means. -/
theorem layer256_eq (h : FVec F Cert.ReferenceIdeal.S100000x256 .f32) (s1 d1 s2 d2 : IVec Cert.ReferenceIdeal.S640000 32) :
    Cert.ReferenceIdeal.RefRun.layer256 h s1 d1 s2 d2
      = combine (R := 100000) (D := 256) (E := 512) rfl h (Cert.KernelIdeal.HostChain.mean256 h s1 d1)
          (Cert.KernelIdeal.HostChain.mean256 h s2 d2) := by
  unfold Cert.ReferenceIdeal.RefRun.layer256 Cert.ReferenceIdeal.RefRun.leaky256
  rw [mean256_eq, mean256_eq]
  exact concat_leaky_eq_combine (R := 100000) (D := 256) (E := 512) rfl _ _ h _ _ _

/-- The reference's result is the kernel program's result, as functions of the five arguments. -/
theorem refOut_eq (x : FVec F Cert.ReferenceIdeal.S100000x128 .f32) (s1 d1 s2 d2 : IVec Cert.ReferenceIdeal.S640000 32) :
    Cert.ReferenceIdeal.RefRun.refOut x s1 d1 s2 d2 = Cert.KernelIdeal.KernelValue.kernelOut x s1 d1 s2 d2 := by
  unfold Cert.ReferenceIdeal.RefRun.refOut Cert.KernelIdeal.KernelValue.kernelOut
  rw [layer256_eq, layer128_eq]

/-- With equal arguments the reference's result and the kernel program's result are equal. -/
theorem final_eq
    (a0 : FVec F Cert.ReferenceIdeal.S100000x128 .f32) (a1 a2 a3 a4 : IVec Cert.ReferenceIdeal.S640000 32)
    (b0 : FVec F Cert.KernelIdeal.S100000x128 .f32) (b1 b2 b3 b4 : IVec Cert.KernelIdeal.S640000 32)
    (e0 : a0 = b0) (e1 : a1 = b1) (e2 : a2 = b2) (e3 : a3 = b3) (e4 : a4 = b4) :
    Cert.ReferenceIdeal.RefRun.refOut a0 a1 a2 a3 a4 = Cert.KernelIdeal.KernelValue.kernelOut b0 b1 b2 b3 b4 := by
  subst e0 e1 e2 e3 e4
  exact refOut_eq _ _ _ _ _

end Cert.Bridge

end
-- ==== Proof.lean ====
/-
  The certificate.

  The kernel program is a two-layer graph network: per layer and per edge set it computes on the host the mean of the
  in-neighbours' rows, and a kernel, tiled over blocks of 2000 rows, adds each mean to the features, applies the leaky
  ReLU and writes the two results side by side. The reference computes the same means with the same host operations
  and then adds, applies the leaky ReLU and concatenates on the host.

  The three frame claims: the two kernel programs' by their frame certificates; the reference's by its run, the result
  dropped. The idealized kernel is the kernel's own text read over the extended reals, so nothing is owed for it. The
  two idealized programs end with equal results: the kernel program's result array is a two-layer function of the
  arguments (its blocks assemble to whole arrays, layer by layer), the reference's result is the reference's two-layer
  function, and the two functions agree entry by entry. No property of the inputs is used: the precondition is never
  opened.
-/
import proofs.«168979_j72112500899859_1_alg».proof.Defs
import proofs.«168979_j72112500899859_1_alg».proof.Proof.Gen.Kernel
import proofs.«168979_j72112500899859_1_alg».proof.Proof.Gen.Kernel.Frame
import proofs.«168979_j72112500899859_1_alg».proof.Proof.Gen.KernelIdeal
import proofs.«168979_j72112500899859_1_alg».proof.Proof.Gen.KernelIdeal.Frame
import proofs.«168979_j72112500899859_1_alg».proof.Proof.Gen.ReferenceIdeal
import proofs.«168979_j72112500899859_1_alg».proof.Proof.Gen.Pre_finite_inputs
import proofs.«168979_j72112500899859_1_alg».proof.Proof.RefRun
import proofs.«168979_j72112500899859_1_alg».proof.Proof.KernelValue
import proofs.«168979_j72112500899859_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

attribute [local irreducible] Cert.KernelIdeal.KernelValue.kernelOut Cert.ReferenceIdeal.RefRun.refOut

theorem frame_kernel : Cert.frame_Kernel := fun m ρ _ => Cert.Kernel.Gen.frame m ρ

theorem frame_kernelIdeal : Cert.frame_KernelIdeal := fun m ρ _ => Cert.KernelIdeal.Gen.frame m ρ

/-- The reference terminates without a fault and leaves its arguments as launched: its run, read at the arguments. -/
theorem frame_referenceIdeal : Cert.frame_ReferenceIdeal := fun m ρ _ =>
  (θ_run Cert.ReferenceIdeal.defs _ _).mono
    (fun _ h c => ⟨(h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _)⟩)
    (Cert.ReferenceIdeal.RefRun.run_main (F := Ideal) m ρ)

/-- From memories that agree on the arguments both idealized programs run, and both result arrays are the two-layer
    function of the kernel program's arguments. -/
theorem algebraic : Cert.algebraic_KernelIdeal_ReferenceIdeal := by
  intro m ρ m' ρ' _ hagree
  refine ⟨_, Cert.KernelIdeal.KernelValue.run (F := Ideal) m ρ, ?_⟩
  refine (θ_run Cert.ReferenceIdeal.defs _ _).mono
    (fun _ h c => ⟨?_,
      (h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _)⟩)
    (Cert.ReferenceIdeal.RefRun.run_main (F := Ideal) m' ρ')
  refine (h c Cert.ReferenceIdeal.main_v85).trans ?_
  refine (Cert.ReferenceIdeal.RefRun.out_eq _).trans ?_
  exact Cert.Bridge.final_eq _ _ _ _ _ _ _ _ _ _ (hagree c).1 (hagree c).2.1 (hagree c).2.2.1 (hagree c).2.2.2.1 (hagree c).2.2.2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
